-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x3 : Shape := ⟨2, ![16777216, 3]⟩
abbrev S16777216 : Shape := ⟨1, ![16777216]⟩
abbrev S20 : Shape := ⟨1, ![20]⟩
abbrev S_ : Shape := ⟨0, ![]⟩

class Facts : Prop where
  bcast_S_S16777216x3 : S_.BroadcastsInDim S16777216x3 (![] : Fin 0 → Fin S16777216x3.rank)
  reducesTo_S16777216x3_S_d0_1 : S16777216x3.ReducesTo [0, 1] S_
  h_S_ : 0 < S_.numel
  bcast_S_S16777216 : S_.BroadcastsInDim S16777216 (![] : Fin 0 → Fin S16777216.rank)
  reducesTo_S16777216_S_d0 : S16777216.ReducesTo [0] S_
  bcast_S_S20 : S_.BroadcastsInDim S20 (![] : Fin 0 → Fin S20.rank)
  reducesTo_S20_S_d0 : S20.ReducesTo [0] S_

variable [Facts]

def fn {F : FTy → Type} [FloatOps F] (main_arg0 : FVec F S16777216x3 .f32) (main_arg1 : FVec F S16777216 .f32) (main_arg2 : FVec F S20 .f32) : IVec S_ 1 :=
  let main_v0 : FVec F S16777216x3 .f32 := Host.absf main_arg0
  let main_cst : FVec F S_ .f32 := constant S_ .f32 0x7F800000#32
  let main_v1 : FVec F S16777216x3 .f32 := broadcastInDim S16777216x3 ![] bcast_S_S16777216x3 main_cst
  let main_v2 : IVec S16777216x3 1 := cmpf .olt main_v0 main_v1
  let main_c : IVec S_ 1 := constantI S_ 1 1#1
  let main_v3 : IVec S_ 1 := (fun x v => Host.reduce IntOp.andi x v reducesTo_S16777216x3_S_d0_1 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  main_v13
-- ==== Kernel.lean ====
abbrev S16777216x3 : Shape := ⟨2, ![16777216, 3]⟩
abbrev S16777216 : Shape := ⟨1, ![16777216]⟩
abbrev S20 : Shape := ⟨1, ![20]⟩
abbrev S16777216x1 : Shape := ⟨2, ![16777216, 1]⟩
abbrev S32768x512 : Shape := ⟨2, ![32768, 512]⟩
abbrev S2x1x32 : Shape := ⟨3, ![2, 1, 32]⟩
abbrev S256x512 : Shape := ⟨2, ![256, 512]⟩
abbrev S1x1x32 : Shape := ⟨3, ![1, 1, 32]⟩
abbrev S32x512 : Shape := ⟨2, ![32, 512]⟩
abbrev S512 : Shape := ⟨1, ![512]⟩
abbrev S1x512 : Shape := ⟨2, ![1, 512]⟩
abbrev S32 : Shape := ⟨1, ![32]⟩
abbrev S32x1 : Shape := ⟨2, ![32, 1]⟩
abbrev S1x32 : Shape := ⟨2, ![1, 32]⟩
abbrev S_ : Shape := ⟨0, ![]⟩
abbrev S1x20 : Shape := ⟨2, ![1, 20]⟩

abbrev nBuf : Space → Nat
  | .hbm => 16
  | .vmem => 9
  | .smem => 0
  | _ => 0

abbrev bufTy : (tb : Table) → Fin (tcTables nBuf tb) → BufTy
  | .hbm, ⟨0, _⟩ => ⟨S16777216x3, .f32⟩
  | .hbm, ⟨1, _⟩ => ⟨S16777216, .f32⟩
  | .hbm, ⟨2, _⟩ => ⟨S20, .f32⟩
  | .hbm, ⟨3, _⟩ => ⟨S16777216x1, .f32⟩
  | .hbm, ⟨4, _⟩ => ⟨S16777216, .f32⟩
  | .hbm, ⟨5, _⟩ => ⟨S32768x512, .f32⟩
  | .hbm, ⟨6, _⟩ => ⟨S16777216x1, .f32⟩
  | .hbm, ⟨7, _⟩ => ⟨S16777216, .f32⟩
  | .hbm, ⟨8, _⟩ => ⟨S32768x512, .f32⟩
  | .hbm, ⟨9, _⟩ => ⟨S32768x512, .f32⟩
  | .hbm, ⟨10, _⟩ => ⟨S2x1x32, .f32⟩
  | .hbm, ⟨11, _⟩ => ⟨S_, .f32⟩
  | .hbm, ⟨12, _⟩ => ⟨S1x32, .f32⟩
  | .hbm, ⟨13, _⟩ => ⟨S1x20, .f32⟩
  | .hbm, ⟨14, _⟩ => ⟨S20, .f32⟩
  | .hbm, ⟨15, _⟩ => ⟨S20, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x1x32, .f32⟩
  | .local _ .vmem, ⟨7, _⟩ => ⟨S1x1x32, .f32⟩
  | .local _ .vmem, ⟨8, _⟩ => ⟨S32x512, .f32⟩
  | _, _ => ⟨S16777216x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v250 : BitVec 1 := Scalar.cmpi .eq arg1 c63_i32
  let v251 : BitVec 32 := Scalar.extui v250
  let c0_i32_113 : BitVec 32 := 0#32
  let v252 : BitVec 1 := Scalar.cmpi .ne v251 c0_i32_113
  v252

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S16777216x3_S16777216x1_0_0 : S16777216x3.Slices ![0, 0] S16777216x1
  shapeCasts_S16777216x1_S16777216 : S16777216x1.ShapeCasts S16777216
  shapeCasts_S16777216_S32768x512 : S16777216.ShapeCasts S32768x512
  slices_S16777216x3_S16777216x1_0_1 : S16777216x3.Slices ![0, 1] S16777216x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S256x512_S512 : S256x512.Reduces [0] S512
  inb_S32x512_S1x512_0_0 : ∀ a, (![0, 0] : Fin 2 → Nat) a + S1x512.size a ≤ S32x512.size a
  h_S1x512 : 0 < S1x512.numel
  shapeCasts_S1x512_S512 : S1x512.ShapeCasts S512
  shapeCasts_S512_S1x512 : S512.ShapeCasts S1x512
  inb_S32x512_S1x512_1_0 : ∀ a, (![1, 0] : Fin 2 → Nat) a + S1x512.size a ≤ S32x512.size a
  inb_S32x512_S1x512_2_0 : ∀ a, (![2, 0] : Fin 2 → Nat) a + S1x512.size a ≤ S32x512.size a
  inb_S32x512_S1x512_3_0 : ∀ a, (![3, 0] : Fin 2 → Nat) a + S1x512.size a ≤ S32x512.size a
  inb_S32x512_S1x512_4_0 : ∀ a, (![4, 0] : Fin 2 → Nat) a + S1x512.size a ≤ S32x512.size a
  inb_S32x512_S1x512_5_0 : ∀ a, (![5, 0] : Fin 2 → Nat) a + S1x512.size a ≤ S32x512.size a
  inb_S32x512_S1x512_6_0 : ∀ a, (![6, 0] : Fin 2 → Nat) a + S1x512.size a ≤ S32x512.size a
  inb_S32x512_S1x512_7_0 : ∀ a, (![7, 0] : Fin 2 → Nat) a + S1x512.size a ≤ S32x512.size a
  inb_S32x512_S1x512_8_0 : ∀ a, (![8, 0] : Fin 2 → Nat) a + S1x512.size a ≤ S32x512.size a
  inb_S32x512_S1x512_9_0 : ∀ a, (![9, 0] : Fin 2 → Nat) a + S1x512.size a ≤ S32x512.size a
  inb_S32x512_S1x512_10_0 : ∀ a, (![10, 0] : Fin 2 → Nat) a + S1x512.size a ≤ S32x512.size a
  inb_S32x512_S1x512_11_0 : ∀ a, (![11, 0] : Fin 2 → Nat) a + S1x512.size a ≤ S32x512.size a
  inb_S32x512_S1x512_12_0 : ∀ a, (![12, 0] : Fin 2 → Nat) a + S1x512.size a ≤ S32x512.size a
  inb_S32x512_S1x512_13_0 : ∀ a, (![13, 0] : Fin 2 → Nat) a + S1x512.size a ≤ S32x512.size a
  inb_S32x512_S1x512_14_0 : ∀ a, (![14, 0] : Fin 2 → Nat) a + S1x512.size a ≤ S32x512.size a
  inb_S32x512_S1x512_15_0 : ∀ a, (![15, 0] : Fin 2 → Nat) a + S1x512.size a ≤ S32x512.size a
  inb_S32x512_S1x512_16_0 : ∀ a, (![16, 0] : Fin 2 → Nat) a + S1x512.size a ≤ S32x512.size a
  inb_S32x512_S1x512_17_0 : ∀ a, (![17, 0] : Fin 2 → Nat) a + S1x512.size a ≤ S32x512.size a
  inb_S32x512_S1x512_18_0 : ∀ a, (![18, 0] : Fin 2 → Nat) a + S1x512.size a ≤ S32x512.size a
  inb_S32x512_S1x512_19_0 : ∀ a, (![19, 0] : Fin 2 → Nat) a + S1x512.size a ≤ S32x512.size a
  reduces_S32x512_S32 : S32x512.Reduces [1] S32
  shapeCasts_S32_S32x1 : S32.ShapeCasts S32x1
  transposes_S32x1_p1_0_S1x32 : S32x1.Transposes [1, 0] S1x32
  shapeCasts_S1x32_S1x1x32 : S1x32.ShapeCasts S1x1x32
  inb_S1x1x32_S1x1x32_0_0_0 : ∀ a, (![0, 0, 0] : Fin 3 → Nat) a + S1x1x32.size a ≤ S1x1x32.size a
  h_S1x1x32 : 0 < S1x1x32.numel
  reducesTo_S2x1x32_S1x32_d0 : S2x1x32.ReducesTo [0] S1x32
  h_S_ : 0 < S_.numel
  slices_S1x32_S1x20_0_0 : S1x32.Slices ![0, 0] S1x20
  shapeCasts_S1x20_S20 : S1x20.ShapeCasts S20
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S32768x512.size a
  hwx0_0 : ∀ i : grid0.Coords, EltTy.bits .f32 = 32 ∨ (Rect.block (s := S32768x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S32768x512.size a
  hwx0_1 : ∀ i : grid0.Coords, EltTy.bits .f32 = 32 ∨ (Rect.block (s := S32768x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S32768x512.size a
  hwx0_2 : ∀ i : grid0.Coords, EltTy.bits .f32 = 32 ∨ (Rect.block (s := S32768x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32.size a ≤ S2x1x32.size a
  hwx0_3 : ∀ i : grid0.Coords, EltTy.bits .f32 = 32 ∨ (Rect.block (s := S2x1x32) S1x1x32.size (cc0_transform_3 i) (hinb0_3 i)).WholeWords (EltTy.packing .f32)

variable [Facts₀]

abbrev win0_0 : Pipeline.Window sig grid0 :=
  Pipeline.Window.ofSpec (Memref.whole main_v2) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16777216x3 : Shape := ⟨2, ![16777216, 3]⟩
abbrev S16777216 : Shape := ⟨1, ![16777216]⟩
abbrev S20 : Shape := ⟨1, ![20]⟩
abbrev S16777216x1 : Shape := ⟨2, ![16777216, 1]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S16777216x3, .f32⟩
  | .hbm, ⟨1, _⟩ => ⟨S16777216, .f32⟩
  | .hbm, ⟨2, _⟩ => ⟨S20, .f32⟩
  | .hbm, ⟨3, _⟩ => ⟨S16777216x1, .f32⟩
  | .hbm, ⟨4, _⟩ => ⟨S16777216, .f32⟩
  | .hbm, ⟨5, _⟩ => ⟨S16777216, .f32⟩
  | .hbm, ⟨6, _⟩ => ⟨S16777216x1, .f32⟩
  | .hbm, ⟨7, _⟩ => ⟨S16777216, .f32⟩
  | .hbm, ⟨8, _⟩ => ⟨S16777216, .f32⟩
  | .hbm, ⟨9, _⟩ => ⟨S16777216, .f32⟩
  | .hbm, ⟨10, _⟩ => ⟨S16777216, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S16777216, .i32⟩
  | .hbm, ⟨19, _⟩ => ⟨S_, .i32⟩
  | .hbm, ⟨20, _⟩ => ⟨S16777216, .i32⟩
  | .hbm, ⟨21, _⟩ => ⟨S16777216, .i1⟩
  | .hbm, ⟨22, _⟩ => ⟨S_, .i32⟩
  | .hbm, ⟨23, _⟩ => ⟨S16777216, .i32⟩
  | .hbm, ⟨24, _⟩ => ⟨S16777216, .i1⟩
  | .hbm, ⟨25, _⟩ => ⟨S16777216, .i1⟩
  | .hbm, ⟨26, _⟩ => ⟨S_, .f32⟩
  | .hbm, ⟨27, _⟩ => ⟨S16777216, .f32⟩
  | .hbm, ⟨28, _⟩ => ⟨S16777216, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S16777216, .i32⟩
  | .hbm, ⟨33, _⟩ => ⟨S16777216, .i32⟩
  | .hbm, ⟨34, _⟩ => ⟨S_, .i32⟩
  | .hbm, ⟨35, _⟩ => ⟨S16777216, .i32⟩
  | .hbm, ⟨36, _⟩ => ⟨S16777216, .i32⟩
  | .hbm, ⟨37, _⟩ => ⟨S_, .f32⟩
  | .hbm, ⟨38, _⟩ => ⟨S20, .f32⟩
  | .hbm, ⟨39, _⟩ => ⟨S16777216x1, .i32⟩
  | .hbm, ⟨40, _⟩ => ⟨S20, .f32⟩
  | .hbm, ⟨41, _⟩ => ⟨S20, .f32⟩
  | _, _ => ⟨S16777216x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call0_v0 : Ref sig .tc := ⟨.hbm, 27, rfl⟩
abbrev main_v19 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  slices_S16777216x3_S16777216x1_0_0 : S16777216x3.Slices ![0, 0] S16777216x1
  shapeCasts_S16777216x1_S16777216 : S16777216x1.ShapeCasts S16777216
  slices_S16777216x3_S16777216x1_0_1 : S16777216x3.Slices ![0, 1] S16777216x1
  bcast_S_S16777216 : S_.BroadcastsInDim S16777216 (![] : Fin 0 → Fin S16777216.rank)
  bcast_S_S20 : S_.BroadcastsInDim S20 (![] : Fin 0 → Fin S20.rank)
  bcast_S16777216_S16777216x1_0 : S16777216.BroadcastsInDim S16777216x1 (![0] : Fin 1 → Fin S16777216x1.rank)
  scatter_S20_S16777216x1_S16777216_n_0_0_1_wf : ScatterDims.WF S20 S16777216x1 S16777216 [] [0] [0] 1

variable [Facts₀]

def scatter_S20_S16777216x1_S16777216_n_0_0_1 : ScatterDims S20 S16777216x1 S16777216 where
  updateWindowDims := []
  insertedWindowDims := [0]
  scatterDimsToOperandDims := [0]
  indexVectorDim := 1
  wf := scatter_S20_S16777216x1_S16777216_n_0_0_1_wf

class Facts : Prop extends Facts₀ where

variable [Facts]
-- ==== Proof.Step.lean ====
/-
  One grid point's effect on the carried accumulator.

  The accumulator is a 32 × 512 block: row b < 20 holds, lane by lane, the running sum of bin b; rows 20–31 are never
  touched after the reset. At a grid point the body reads three 256 × 512 blocks (x, y, mass) and, for each bin
  b = 0 … 19, adds to row b the column sums of the block whose entries are an element's weight where its bin is b and
  0 elsewhere. The twenty row stores are twenty tiles of one row each, kept apart by the row axis, so an entry of the
  block after the point reads the one tile on its row, or what the block held before when its row is 20 or more.
-/
import proofs.«114598_j75222057222756_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Idealize.ShloMosaic.View

variable {sig : RefSig} {κ : Kind} {sp : Space} {s : Shape} {e : EltTy} {Val : EltTy → Type} {NT : ℕ}

/-- An index that on axis `ax` misses every tile reads what the buffer held before the tile stores. -/
theorem read_tilePieces_of_miss (v : View sig κ sp s e) (f : v.ty.Contents Val) (tsz : Fin s.rank → ℕ)
    (off : Fin NT → Fin s.rank → ℕ) (inb : ∀ i a, off i a + tsz a ≤ s.size a)
    (P : Fin NT → (⟨s.rank, tsz⟩ : Shape).Idx → Val e) (j : ℕ) (hj : j ≤ NT) (y : s.Idx) (ax : Fin s.rank)
    (hmiss : ∀ i : Fin NT, (y ax).val < off i ax ∨ off i ax + tsz ax ≤ (y ax).val) :
    v.read Val (v.writes Val f (tilePieces tsz off inb P j hj)) y = v.read Val f y := by
  induction j with
  | zero => rfl
  | succ j ih =>
    rw [tilePieces_succ, read_writes_cons_unit_of_not_mem v f (inb ⟨j, hj⟩) (P ⟨j, hj⟩) _ y rfl ax (hmiss ⟨j, hj⟩)]
    exact ih (Nat.le_of_succ_le hj)

/-- A load after ONE store through the whole shape reads that store's payload at the load's indices. -/
theorem readCov_whole_ld [∀ e, Nonempty (Val e)] (v : View sig κ sp s e) {off : Fin s.rank → ℕ} (h : off = fun _ => 0)
    (inb0 : ∀ a, off a + s.size a ≤ s.size a) (w : s.Idx → Val e) (r : Rect s) :
    v.readCov [(⟨Rect.unit off s.size inb0, w⟩ : Piece Val s e)] r.toLoadRect = ld w r := by
  rw [readCov_eq_canon_ld v _ r (fun y => ⟨_, List.mem_singleton_self _, mem_set_unit_zero h inb0 y⟩), canon_unit_zero h]

/-- A buffer read after ONE store through the whole shape holds that store's payload. -/
theorem read_writes_unit_zero [∀ e, Nonempty (Val e)] (v : View sig κ sp s e) (f : v.ty.Contents Val) {off : Fin s.rank → ℕ}
    (h : off = fun _ => 0) (inb0 : ∀ a, off a + s.size a ≤ s.size a) (w : s.Idx → Val e) :
    v.read Val (v.writes Val f [(⟨Rect.unit off s.size inb0, w⟩ : Piece Val s e)]) = w := by
  rw [read_writes_eq_canon v f _ (fun y => ⟨_, List.mem_singleton_self _, mem_set_unit_zero h inb0 y⟩), canon_unit_zero h]

end Idealize.ShloMosaic.View

namespace Cert.KernelIdeal.Step

open Cert.KernelIdeal Cert.KernelIdeal.Gen

variable {F : FTy → Type} [FloatOps F]

theorem hz2 : (![0, 0] : Fin 2 → Nat) = fun _ => 0 := funext fun a => by fin_cases a <;> rfl

/-- A one-row block read as a vector: entry l is the row's entry (0, l). -/
theorem cast_row_vec {α : Type} {n : ℕ} (x : (⟨2, ![1, n]⟩ : Shape).Idx → α) (h : (⟨2, ![1, n]⟩ : Shape).ShapeCasts ⟨1, ![n]⟩)
    (l : Fin n) : shapeCast ⟨1, ![n]⟩ x h (ix1 l) = x (ix2 (0 : Fin 1) l) :=
  shapeCast_apply x h (ix1 l) (ix2 (0 : Fin 1) l) (by
    rw [Shape.rowMajor_val_two, Shape.rowMajor_val_one]
    show (0 : ℕ) * n + l.val = l.val
    omega)

/-- A vector laid out as a one-row block: entry (0, l) is the vector's entry l. -/
theorem cast_vec_row {α : Type} {n : ℕ} (x : (⟨1, ![n]⟩ : Shape).Idx → α) (h : (⟨1, ![n]⟩ : Shape).ShapeCasts ⟨2, ![1, n]⟩)
    (u : Fin 1) (l : Fin n) : shapeCast ⟨2, ![1, n]⟩ x h (ix2 u l) = x (ix1 l) :=
  shapeCast_apply x h (ix2 u l) (ix1 l) (by
    rw [Shape.rowMajor_val_two, Shape.rowMajor_val_one]
    have hu : u.val = 0 := by omega
    show l.val = u.val * n + l.val
    rw [hu]; omega)

/-- The column sums, lane by lane, of the block holding an element's weight where its bin word is `b` and 0 elsewhere. -/
def contrib (b : BitVec 32) (x0 x1 x2 : Vec F S256x512 .f32) : FVec F S512 .f32 :=
  multiReduction .add [0] S512 (select (cmpi .eq (k0_pay5 x0 x1) (broadcast S256x512 b)) (k0_pay6 x0 x1 x2)
    (broadcast S256x512 (Scalar.ofBits .f32 0x00000000#32))) 0x00000000#32 reduces_S256x512_S512 (.inl rfl) rfl

/-- What the body stores into the row of bin word `b`: the row as it was, plus the bin's column sums. -/
def rowPay (b : BitVec 32) (x0 x1 x2 : Vec F S256x512 .f32) (old : Vec F S1x512 .f32) : FVec F S1x512 .f32 :=
  shapeCast S1x512 (addf (shapeCast S512 old shapeCasts_S1x512_S512) (contrib b x0 x1 x2)) shapeCasts_S512_S1x512

/-- Entry (0, l) of that row. -/
theorem rowPay_apply (b : BitVec 32) (x0 x1 x2 : Vec F S256x512 .f32) (old : Vec F S1x512 .f32) (u : Fin 1) (l : Fin 512) :
    rowPay b x0 x1 x2 old (ix2 u l) = FloatOps.addf (old (ix2 (0 : Fin 1) l)) (contrib b x0 x1 x2 (ix1 l)) := by
  unfold rowPay
  rw [cast_vec_row]
  show FloatOps.addf (shapeCast S512 old shapeCasts_S1x512_S512 (ix1 l)) _ = _
  rw [cast_row_vec]

/-- Row i of the accumulator, as a tile: offsets (i, 0), one row of 512 lanes. -/
abbrev rowOff (i : Fin 20) : Fin 2 → ℕ := ![i.val, 0]

theorem rowInb (i : Fin 20) (a : Fin 2) : rowOff i a + (![1, 512] : Fin 2 → ℕ) a ≤ S32x512.size a := by
  have := i.isLt
  match a with
  | ⟨0, _⟩ => show i.val + 1 ≤ 32; omega
  | ⟨1, _⟩ => show 0 + 512 ≤ 512; omega

/-- The twenty row stores' payloads over a block that held `xs0`. -/
def tileP (xs0 : Vec F S32x512 .f32) (x0 x1 x2 : Vec F S256x512 .f32) (i : Fin 20) : (⟨2, ![1, 512]⟩ : Shape).Idx → F .f32 :=
  rowPay (BitVec.ofNat 32 i.val) x0 x1 x2 (View.ld xs0 (Rect.unit (s := S32x512) (rowOff i) ![1, 512] (rowInb i)))

/-- The accumulator after a point that found it at `xs0`: rows below 20 gain their bin's column sums. -/
def step (xs0 : Vec F S32x512 .f32) (x0 x1 x2 : Vec F S256x512 .f32) : Vec F S32x512 .f32 := fun y =>
  if (y 0).val < 20 then FloatOps.addf (xs0 y) (contrib (BitVec.ofNat 32 (y 0).val) x0 x1 x2 (ix1 (y 1))) else xs0 y

/-- Reading the twenty tiles over any buffer whose contents read `xs0`. -/
theorem read_tiles (v : View sig .tc .vmem S32x512 .f32) (f : v.ty.Contents (Elt F)) (xs0 : Vec F S32x512 .f32) (x0 x1 x2 : Vec F S256x512 .f32)
    (hf : v.read (Elt F) f = xs0) (y : S32x512.Idx) :
    v.read (Elt F) (v.writes (Elt F) f (View.tilePieces (s := S32x512) ![1, 512] rowOff rowInb (tileP xs0 x0 x1 x2) 20 le_rfl)) y
      = step xs0 x0 x1 x2 y := by
  obtain ⟨p, l, rfl⟩ : ∃ (p : Fin 32) (l : Fin 512), y = ix2 p l := ⟨y 0, y 1, eq_ix2 y⟩
  unfold step
  by_cases hp : p.val < 20
  · rw [if_pos (show ((ix2 p l : S32x512.Idx) 0).val < 20 from hp)]
    rw [View.read_tilePieces v f ![1, 512] rowOff rowInb (tileP xs0 x0 x1 x2) 20 le_rfl (ix2 p l) ⟨p.val, hp⟩ hp (ix2 (0 : Fin 1) l)
      (fun a => by
        match a with
        | ⟨0, _⟩ => show p.val = p.val + 0; omega
        | ⟨1, _⟩ => show l.val = 0 + l.val; omega)
      (0 : Fin 2)
      (fun i' hne => by
        have : i'.val ≠ p.val := fun h => hne (Fin.ext h)
        show p.val < i'.val ∨ i'.val + 1 ≤ p.val
        omega)]
    unfold tileP
    rw [rowPay_apply]
    show FloatOps.addf (xs0 _) _ = FloatOps.addf (xs0 (ix2 p l)) _
    congr 2
    funext a
    apply Fin.ext
    match a with
    | ⟨0, _⟩ => show p.val + 1 * 0 = p.val; omega
    | ⟨1, _⟩ => show 0 + 1 * l.val = l.val; omega
  · rw [if_neg (show ¬((ix2 p l : S32x512.Idx) 0).val < 20 from hp)]
    rw [View.read_tilePieces_of_miss v f ![1, 512] rowOff rowInb (tileP xs0 x0 x1 x2) 20 le_rfl (ix2 p l) (0 : Fin 2)
      (fun i => by
        have := i.isLt
        show p.val < i.val ∨ i.val + 1 ≤ p.val
        omega), hf]

/-- A middle point (neither first nor last of its core's 64): the accumulator it found, stepped. -/
theorem sout_B_eq (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x1x32 .f32) (harg5 : arg5.IsWhole) (arg6 : Memref sig .tc .vmem S32x512 .f32) (harg6 : arg6.IsWhole) (hc0 : ¬cond0_0 i) (hc1 : ¬cond0_1 i)
    (x0 x1 x2 : Vec F S256x512 .f32) (xs0 : Vec F S32x512 .f32) :
    sout0_B_0 c i arg2 harg2 arg3 harg3 arg4 harg4 arg5 harg5 arg6 harg6 hc0 hc1 x0 x1 x2 xs0 = step xs0 x0 x1 x2 := by
  funext y
  unfold sout0_B_0
  unfold kernelRun0_B
  dsimp only
  sl_unfold_words
  simp only [View.readAt_eq_ld, harg2.read_unread, harg3.read_unread, harg4.read_unread, harg6.read_unread,
    View.ld_unit_zero (S := S256x512) hz2]
  exact read_tiles arg6.view (harg6.unread xs0) xs0 x0 x1 x2 (harg6.read_unread xs0) y

/-- A row load after a store to another row reads what the earlier stores left. -/
theorem readCov_skip (v : View sig .tc .vmem S32x512 .f32) {o o' : ℕ} (h : o + 1 ≤ o' ∨ o' + 1 ≤ o)
    (inb : ∀ a, (![o, 0] : Fin 2 → ℕ) a + (![1, 512] : Fin 2 → ℕ) a ≤ S32x512.size a)
    (inb' : ∀ a, (![o', 0] : Fin 2 → ℕ) a + (![1, 512] : Fin 2 → ℕ) a ≤ S32x512.size a)
    (x : (Rect.unit (s := S32x512) ![o, 0] ![1, 512] inb).shape.Idx → F .f32) (L : List (View.Piece (Elt F) S32x512 .f32)) :
    v.readCov ((⟨Rect.unit (s := S32x512) ![o, 0] ![1, 512] inb, x⟩ : View.Piece (Elt F) S32x512 .f32) :: L)
        (Rect.unit (s := S32x512) ![o', 0] ![1, 512] inb').toLoadRect
      = v.readCov L (Rect.unit (s := S32x512) ![o', 0] ![1, 512] inb').toLoadRect :=
  View.readCov_cons_of_disjoint v _ L _ (Rect.unit_disjoint (inb := inb) (inb' := inb') 0 h)

/-- The twenty tiles over a block that was first reset to `z` by one store through the whole shape. -/
theorem read_tiles_reset (v : View sig .tc .vmem S32x512 .f32) (f : v.ty.Contents (Elt F)) (x0 x1 x2 : Vec F S256x512 .f32)
    (inb0 : ∀ a, (![0, 0] : Fin 2 → ℕ) a + S32x512.size a ≤ S32x512.size a) (z : Vec F S32x512 .f32) (y : S32x512.Idx) :
    v.read (Elt F) (v.writes (Elt F) f
      (View.tilePieces (s := S32x512) ![1, 512] rowOff rowInb (tileP z x0 x1 x2) 20 le_rfl
        ++ [⟨Rect.unit (s := S32x512) ![0, 0] S32x512.size inb0, z⟩])) y = step z x0 x1 x2 y := by
  rw [View.writes_append]
  exact read_tiles v _ z x0 x1 x2 (View.read_writes_unit_zero v f hz2 inb0 z) y

/-- The first point of a core's 64: the block is reset to zeros, then stepped. -/
theorem sout_A_eq (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x1x32 .f32) (harg5 : arg5.IsWhole) (arg6 : Memref sig .tc .vmem S32x512 .f32) (harg6 : arg6.IsWhole) (hc0 : cond0_0 i) (hc1 : ¬cond0_1 i)
    (x0 x1 x2 : Vec F S256x512 .f32) :
    sout0_A_0 c i arg2 harg2 arg3 harg3 arg4 harg4 arg5 harg5 arg6 harg6 hc0 hc1 x0 x1 x2 = step k0_pay3 x0 x1 x2 := by
  funext y
  unfold sout0_A_0
  unfold kernelRun0_A
  dsimp only
  sl_unfold_words
  simp (disch := omega) only [View.readAt_eq_ld, harg2.read_unread, harg3.read_unread, harg4.read_unread,
    View.ld_unit_zero (S := S256x512) hz2, readCov_skip, View.readCov_whole_ld arg6.view hz2]
  exact read_tiles_reset VS0_0 VS0_0.junk x0 x1 x2 inb_S32x512_S32x512_0_0 k0_pay3 y
/-- The last point of a core's 64: the accumulator it found, stepped (as at a middle point). -/
theorem sout_C_eq (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x1x32 .f32) (harg5 : arg5.IsWhole) (arg6 : Memref sig .tc .vmem S32x512 .f32) (harg6 : arg6.IsWhole) (hc0 : ¬cond0_0 i) (hc1 : cond0_1 i)
    (x0 x1 x2 : Vec F S256x512 .f32) (xs0 : Vec F S32x512 .f32) :
    sout0_C_0 c i arg2 harg2 arg3 harg3 arg4 harg4 arg5 harg5 arg6 harg6 hc0 hc1 x0 x1 x2 xs0 = step xs0 x0 x1 x2 := by
  funext y
  unfold sout0_C_0
  unfold kernelRun0_C
  dsimp only
  sl_unfold_words
  simp only [View.readAt_eq_ld, harg2.read_unread, harg3.read_unread, harg4.read_unread, harg6.read_unread,
    View.ld_unit_zero (S := S256x512) hz2]
  exact read_tiles arg6.view (harg6.unread xs0) xs0 x0 x1 x2 (harg6.read_unread xs0) y

theorem hz3 : (![0, 0, 0] : Fin 3 → Nat) = fun _ => 0 := funext fun a => by fin_cases a <;> rfl

/-- The last point also stores the output block: the lane sums of the stepped accumulator, laid out as 1 × 1 × 32. -/
theorem out_C_eq (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x1x32 .f32) (harg5 : arg5.IsWhole) (arg6 : Memref sig .tc .vmem S32x512 .f32) (harg6 : arg6.IsWhole) (hc0 : ¬cond0_0 i) (hc1 : cond0_1 i)
    (x0 x1 x2 : Vec F S256x512 .f32) (xs0 : Vec F S32x512 .f32) :
    out0_C_3 c i arg2 harg2 arg3 harg3 arg4 harg4 arg5 harg5 arg6 harg6 hc0 hc1 x0 x1 x2 xs0 = k0_pay2 (step xs0 x0 x1 x2) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.ld_unit_zero (S := S256x512) hz2, View.ld_unit_zero (S := S32x512) hz2]
  congr 1
  funext y
  exact read_tiles arg6.view (harg6.unread xs0) xs0 x0 x1 x2 (harg6.read_unread xs0) y

end Cert.KernelIdeal.Step

end
-- ==== Proof.HistSpec.lean ====
/-
  The histogram both programs compute, one element and one bin at a time, over the extended reals.

  An element with planar coordinates (x, y) and mass m falls in the ring numbered
  floor (2 · sqrt (x² + y²)), read as a signed 32-bit word; its weight is m when that word lies in [0, 20) and 0 otherwise;
  its bin is the word clamped to [0, 19]. Bin b of the result is the sum, over all 16 777 216 elements, of the weights
  of the elements whose bin is b, divided by the ring's area. Written here: the per-element terms in the spelling of
  the kernel, the same terms in the spelling of the reference (which divides by 1/2 where the kernel multiplies by 2),
  and the whole result `G`.
-/
import Idealize.ShloMosaic.PureOps.Ideal
import Idealize.ShloMosaic.PureOps.Vector
import Idealize.ShloMosaic.Lib.ValueIdx

noncomputable section

namespace Cert.Hist

open Idealize.ShloMosaic Idealize.ShloMosaic.ValueIdx

/-- The pattern of +0.0 denotes 0. -/
theorem ofBits_zero : Ideal.ofBits .f32 0x00000000#32 = 0 := by
  simp [Ideal.ofBits, Ideal.ieee]

/-- The pattern of 2.0 denotes the real 2. -/
theorem ofBits_two : Ideal.ofBits .f32 0x40000000#32 = ((2 : ℝ) : EReal) := by
  simp [Ideal.ofBits, Ideal.ieee, -EReal.coe_mul]; norm_num

/-- The pattern of 0.5 denotes the real 1/2. -/
theorem ofBits_half : Ideal.ofBits .f32 0x3F000000#32 = ((1 / 2 : ℝ) : EReal) := by
  simp [Ideal.ofBits, Ideal.ieee, -EReal.coe_mul]; norm_num

/-- The ring number of an element as a signed word, before clamping: floor ((sqrt (x² + y²) − 0) · 2). -/
def raw (x y : Ideal .f32) : BitVec 32 :=
  FloatOps.fptosi 32 (FloatOps.floor (FloatOps.mulf (FloatOps.subf (FloatOps.sqrt (FloatOps.addf (FloatOps.mulf x x) (FloatOps.mulf y y)))
    (Scalar.ofBits (F := Ideal) .f32 0x00000000#32)) (Scalar.ofBits (F := Ideal) .f32 0x40000000#32)))

/-- The same word as the reference spells it: floor ((sqrt (x² + y²) − 0) / (1/2)). -/
def rawRef (x y : Ideal .f32) : BitVec 32 :=
  FloatOps.fptosi 32 (FloatOps.hostUnary .floor (FloatOps.hostDivf (FloatOps.subf (FloatOps.hostUnary .sqrt (FloatOps.addf (FloatOps.mulf x x) (FloatOps.mulf y y)))
    (FloatOps.ofBits (F := Ideal) .f32 0x00000000#32)) (FloatOps.ofBits (F := Ideal) .f32 0x3F000000#32)))

/-- Dividing by 1/2 is multiplying by 2 on every extended real, so the two spellings are one word. -/
theorem rawRef_eq (x y : Ideal .f32) : rawRef x y = raw x y := by
  unfold rawRef raw
  simp only [Scalar.ofBits, Ideal.hostUnary_floor_def, Ideal.floor_def, Ideal.hostUnary_sqrt_def, Ideal.sqrt_def, Ideal.hostDivf_def,
    Ideal.mulf_def, Ideal.ofBits_def, ofBits_half, ofBits_two, Ideal.div_coe (by norm_num : (1 / 2 : ℝ) ≠ 0)]
  norm_num

/-- The bin of an element: its ring number clamped to [0, 19]. -/
def bin (x y : Ideal .f32) : BitVec 32 := IntOp.minsi 19#32 (IntOp.maxsi 0#32 (raw x y))

/-- The weight of an element: its mass when the ring number lies in [0, 20), else 0. -/
def wt (x y m : Ideal .f32) : Ideal .f32 :=
  Scalar.select (IntOp.andi (IntOp.cmpi .sge (raw x y) 0#32) (IntOp.cmpi .slt (raw x y) 20#32)) m (Scalar.ofBits (F := Ideal) .f32 0x00000000#32)

/-- What an element adds to bin `b`: its weight when its bin is `b`, else 0. -/
def term (b : BitVec 32) (x y m : Ideal .f32) : Ideal .f32 :=
  Scalar.select (IntOp.cmpi .eq (bin x y) b) (wt x y m) (Scalar.ofBits (F := Ideal) .f32 0x00000000#32)

/-- The +0.0 both programs select for an element outside a bin, or of zero weight, is the extended real 0. -/
theorem term_zero : (Scalar.ofBits (F := Ideal) .f32 0x00000000#32 : Ideal .f32) = (0 : EReal) := by
  show FloatOps.ofBits (F := Ideal) .f32 0x00000000#32 = _
  rw [Ideal.ofBits_def, ofBits_zero]

/-- The mass in bin `b`: the sum over every element of what it adds to the bin. -/
def mass (pos : (⟨2, ![16777216, 3]⟩ : Shape).Idx → Ideal .f32) (ms : (⟨1, ![16777216]⟩ : Shape).Idx → Ideal .f32) (b : Fin 20) : EReal :=
  ∑ j : Fin 16777216, term (BitVec.ofNat 32 b.val) (pos (ix2 j (0 : Fin 3))) (pos (ix2 j (1 : Fin 3))) (ms (ix1 j))

/-- The result: per bin, the mass in the bin divided by the ring's area. -/
def G (pos : (⟨2, ![16777216, 3]⟩ : Shape).Idx → Ideal .f32) (ms : (⟨1, ![16777216]⟩ : Shape).Idx → Ideal .f32)
    (area : (⟨1, ![20]⟩ : Shape).Idx → Ideal .f32) : (⟨1, ![20]⟩ : Shape).Idx → Ideal .f32 :=
  fun i => FloatOps.hostDivf (mass pos ms (i 0)) (area i)

end Cert.Hist

end
-- ==== Proof.Acc.lean ====
/-
  The carried accumulator point by point.

  The 128 grid points run in order n = 64·c + s (c the core's coordinate, s the step). At s = 0 the accumulator is reset
  to zeros and stepped with the point's three blocks; at every other point it is the previous point's accumulator stepped
  with the point's blocks; at s = 63 the point also stores the lane sums of the stepped accumulator as its output block.
  So after point 64·c + s row b < 20, lane l holds the sum over the steps s' ≤ s of bin b's column sums of block 64·c + s'.
-/
import proofs.«114598_j75222057222756_2_alg».proof.Proof.Step
import proofs.«114598_j75222057222756_2_alg».proof.Proof.HistSpec

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Step

variable {F : FTy → Type} [FloatOps F]
variable (m : (ℓ : Loc nD τ sig) → Buf (Elt F) ℓ)

/-- The accumulator after point `n`. -/
def accAt (c : Dev nD) : (n : ℕ) → n < cfg0.N → Vec F S32x512 .f32
  | 0, h => step k0_pay3 (iblk m c 0 ⟨0, h⟩) (iblk m c 1 ⟨0, h⟩) (iblk m c 2 ⟨0, h⟩)
  | n + 1, h =>
    if (n + 1) % 64 = 0 then step k0_pay3 (iblk m c 0 ⟨n + 1, h⟩) (iblk m c 1 ⟨n + 1, h⟩) (iblk m c 2 ⟨n + 1, h⟩)
    else step (accAt c n (Nat.lt_of_succ_lt h)) (iblk m c 0 ⟨n + 1, h⟩) (iblk m c 1 ⟨n + 1, h⟩) (iblk m c 2 ⟨n + 1, h⟩)

/-- At the first of a core's 64 points the accumulator is the zero block stepped. -/
theorem accAt_first (c : Dev nD) (n : ℕ) (h : n < cfg0.N) (h0 : n % 64 = 0) :
    accAt m c n h = step k0_pay3 (iblk m c 0 ⟨n, h⟩) (iblk m c 1 ⟨n, h⟩) (iblk m c 2 ⟨n, h⟩) := by
  cases n with
  | zero => rfl
  | succ n => exact if_pos h0

/-- At any other point it is the previous point's accumulator stepped. -/
theorem accAt_next (c : Dev nD) (n : ℕ) (h : n + 1 < cfg0.N) (h0 : ¬(n + 1) % 64 = 0) :
    accAt m c (n + 1) h
      = step (accAt m c n (Nat.lt_of_succ_lt h)) (iblk m c 0 ⟨n + 1, h⟩) (iblk m c 1 ⟨n + 1, h⟩) (iblk m c 2 ⟨n + 1, h⟩) :=
  if_neg h0

/-- The frame's contents at two equal point numbers agree (the proof of being inside the grid does not matter). -/
theorem outsAt_snd_congr (c : Dev nD) {k n : ℕ} (e : k = n) (hk : k < cfg0.N) (hn : n < cfg0.N) :
    (outsAt0 m c k hk).2 = (outsAt0 m c n hn).2 := by
  subst e; rfl

/-- What the frame's point-by-point contents carry in the accumulator is `accAt`. -/
theorem outsAt_acc (c : Dev nD) : ∀ (n : ℕ) (h : n < cfg0.N), (outsAt0 m c n h).2 = accAt m c n h
  | 0, h => by
    rw [outsAt0_A m c ⟨0, h⟩ rfl (by show ¬0 % 64 = 63; omega), sout_A_eq]
    rfl
  | n + 1, h => by
    by_cases h0 : (n + 1) % 64 = 0
    · have h1 : ¬(n + 1) % 64 = 63 := by omega
      rw [outsAt0_A m c ⟨n + 1, h⟩ h0 h1, accAt_first m c (n + 1) h h0, sout_A_eq]
    · by_cases h1 : (n + 1) % 64 = 63
      · rw [outsAt0_C m c ⟨n + 1, h⟩ h0 h1, accAt_next m c n h h0, sout_C_eq]
        refine congrArg (fun z => step z _ _ _) ?_
        exact (outsAt_snd_congr m c (Nat.add_sub_cancel n 1) _ (Nat.lt_of_succ_lt h)).trans (outsAt_acc c n _)
      · rw [outsAt0_B m c ⟨n + 1, h⟩ h0 h1, accAt_next m c n h h0, sout_B_eq]
        refine congrArg (fun z => step z _ _ _) ?_
        exact (outsAt_snd_congr m c (Nat.add_sub_cancel n 1) _ (Nat.lt_of_succ_lt h)).trans (outsAt_acc c n _)

/-- At the last of a core's 64 points the output block is the lane sums of that point's accumulator. -/
theorem outsAt_out (c : Dev nD) (n : ℕ) (h : n < cfg0.N) (h1 : n % 64 = 63) :
    (outsAt0 m c n h).1 = k0_pay2 (accAt m c n h) := by
  cases n with
  | zero => exact absurd h1 (by decide)
  | succ n =>
    have h0 : ¬(n + 1) % 64 = 0 := by omega
    rw [outsAt0_C m c ⟨n + 1, h⟩ h0 h1, accAt_next m c n h h0, out_C_eq]
    refine congrArg (fun z => k0_pay2 (step z _ _ _)) ?_
    exact (outsAt_snd_congr m c (Nat.add_sub_cancel n 1) _ (Nat.lt_of_succ_lt h)).trans (outsAt_acc m c n _)

/-! ## The closed form, over the extended reals -/

section AtIdeal

variable (m : (ℓ : Loc nD τ sig) → Buf (Elt Ideal) ℓ)

/-- Lane `l` of the column sums of bin word `b` over the blocks of point `n` (0 for an `n` past the grid). -/
def colSum (c : Dev nD) (n : ℕ) (b : BitVec 32) (l : Fin 512) : EReal :=
  if h : n < cfg0.N then contrib b (iblk m c 0 ⟨n, h⟩) (iblk m c 1 ⟨n, h⟩) (iblk m c 2 ⟨n, h⟩) (ix1 l) else 0

theorem colSum_of_lt (c : Dev nD) (n : ℕ) (h : n < cfg0.N) (b : BitVec 32) (l : Fin 512) :
    colSum m c n b l = contrib b (iblk m c 0 ⟨n, h⟩) (iblk m c 1 ⟨n, h⟩) (iblk m c 2 ⟨n, h⟩) (ix1 l) := dif_pos h

/-- The reset block is zero at every entry. -/
theorem pay3_zero (y : S32x512.Idx) : (k0_pay3 (F := Ideal) y : EReal) = 0 := by
  unfold k0_pay3
  rw [shapeCast_self]
  exact Cert.Hist.term_zero

/-- An entry of the stepped accumulator. -/
theorem step_apply (xs0 : Vec Ideal S32x512 .f32) (x0 x1 x2 : Vec Ideal S256x512 .f32) (b : Fin 32) (l : Fin 512) :
    step xs0 x0 x1 x2 (ix2 b l)
      = if b.val < 20 then (xs0 (ix2 b l) : EReal) + contrib (BitVec.ofNat 32 b.val) x0 x1 x2 (ix1 l) else xs0 (ix2 b l) := rfl

/-- After step `s` of core coordinate `q`, row `b < 20`, lane `l` holds the sum over the steps up to `s` of bin `b`'s column
    sums at that lane; rows 20 to 31 hold 0. -/
theorem accAt_closed (c : Dev nD) (q : ℕ) (b : Fin 32) (l : Fin 512) : ∀ (s : ℕ) (h : 64 * q + s < cfg0.N), s < 64 →
    (accAt m c (64 * q + s) h (ix2 b l) : EReal)
      = if b.val < 20 then ∑ s' ∈ Finset.range (s + 1), colSum m c (64 * q + s') (BitVec.ofNat 32 b.val) l else 0
  | 0, h, _ => by
    rw [accAt_first m c (64 * q + 0) h (by omega), step_apply, pay3_zero]
    by_cases hb : b.val < 20
    · rw [if_pos hb, if_pos hb, Finset.sum_range_one, zero_add, colSum_of_lt m c _ h]
    · rw [if_neg hb, if_neg hb]
  | s + 1, h, hs => by
    have e : accAt m c (64 * q + (s + 1)) h = _ := accAt_next m c (64 * q + s) h (by omega)
    rw [e, step_apply, accAt_closed c q b l s (Nat.lt_of_succ_lt h) (by omega)]
    by_cases hb : b.val < 20
    · rw [if_pos hb, if_pos hb, if_pos hb, Finset.sum_range_succ _ (s + 1), colSum_of_lt m c (64 * q + (s + 1)) h]
      rfl
    · rw [if_neg hb, if_neg hb, if_neg hb]

end AtIdeal

end Cert.KernelIdeal.Acc

end
-- ==== Proof.Final.lean ====
/-
  The output array after the region.

  The output window's block (1 × 1 × 32) at grid point n sits at block index (n / 64, 0, 0) of the 2 × 1 × 32 array and is
  written back only at the last of a core's 64 points (n ≡ 63 mod 64), where the body has stored the lane sums of that
  point's accumulator. The two written blocks cover the array, so entry (q, 0, b) of the array after the run is row b's
  lane sum of the accumulator after point 64·q + 63.
-/
import proofs.«114598_j75222057222756_2_alg».proof.Proof.Acc

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Step Cert.KernelIdeal.Acc

variable {F : FTy → Type} [FloatOps F]
variable (m : (ℓ : Loc nD τ sig) → Buf (Elt F) ℓ)

/-- The accumulator after point `n`, for any natural `n` (the zero block past the grid). -/
def accT (c : Dev nD) (n : ℕ) : Vec F S32x512 .f32 := if h : n < cfg0.N then accAt m c n h else k0_pay3

theorem accT_of_lt (c : Dev nD) (n : ℕ) (h : n < cfg0.N) : accT m c n = accAt m c n h := dif_pos h

/-- The output array: entry (q, 0, b) is row b's lane sum of the accumulator after point 64·q + 63. -/
def out (c : Dev nD) : S2x1x32.Idx → F .f32 := fun i =>
  k0_pay2 (accT m c (64 * (i 0).val + 63)) (ix3 (0 : Fin 1) (0 : Fin 1) (i 2))

/-- The output window's block index at point `t` is (t / 64, 0, 0). -/
theorem idx3 : ∀ t : Fin cfg0.N, win0_3.index t (0 : Fin 3) = t.val / 64 ∧ win0_3.index t (1 : Fin 3) = 0
    ∧ win0_3.index t (2 : Fin 3) = 0 :=
  (by decide +kernel : ∀ t : Fin grid0.N, _)

/-- What a writing point writes back is its block of `out`. -/
theorem flushed_eq (c : Dev nD) (t : Fin cfg0.N) (hf : (cfg0.win 3).flush t = true) :
    (dats m 0 c).flushed 3 t = ((cfg0.win 3).blk t).view.read (Elt F) (out m c) := by
  have h63 : t.val % 64 = 63 := (flush0_3 t).mp hf
  obtain ⟨e0, e1, e2⟩ := idx3 t
  show (cfg0.win 3).cut (grid0.coords t) ((dats m 0 c).after 3 t) = _
  rw [after0_3, outsAt_out m c t.val t.isLt h63]
  funext j
  show k0_pay2 (accAt m c t.val t.isLt) j = out m c (((cfg0.win 3).blk t).view.emb j)
  unfold out
  have hj0 : (j 0).val < 1 := (j 0).isLt
  have hj1 : (j 1).val < 1 := (j 1).isLt
  have hn : 64 * ((((cfg0.win 3).blk t).view.emb j) 0).val + 63 = t.val := by
    show 64 * (win0_3.index t (0 : Fin 3) * 1 + 1 * (j 0).val) + 63 = t.val
    omega
  rw [hn, accT_of_lt m c t.val t.isLt]
  congr 1
  funext a
  apply Fin.ext
  match a with
  | ⟨0, _⟩ => show (j 0).val = 0; omega
  | ⟨1, _⟩ => show (j 1).val = 0; omega
  | ⟨2, _⟩ => show (j 2).val = win0_3.index t (2 : Fin 3) * 32 + 1 * (j 2).val; omega

/-- An index of the array is in point `t`'s block iff each coordinate is in the block's range on its axis. -/
theorem mem_blk3 (t : Fin cfg0.N) (i : S2x1x32.Idx) :
    i ∈ ((cfg0.win 3).blk t).view.set ↔ ∀ a : Fin 3, win0_3.index t a * S1x1x32.size a ≤ (i a).val
      ∧ (i a).val < win0_3.index t a * S1x1x32.size a + S1x1x32.size a := by
  show i ∈ ((View.whole main_v7).slice (win0_3.rect t)).set ↔ _
  rw [View.set_slice_whole, Rect.mem_set_unit]
  exact Iff.rfl

/-- The two written blocks cover the array, so after the run it is `out`. -/
theorem final3 (c : Dev nD) : (dats m 0 c).arrAt 3 cfg0.N = out m c :=
  (dats m 0 c).arrAt_eq_of_cover 3 (out m c) (flushed_eq m c) fun i => by
    have hi0 : (i 0).val < 2 := (i 0).isLt
    have hi1 : (i 1).val < 1 := (i 1).isLt
    have hi2 : (i 2).val < 32 := (i 2).isLt
    have hN : cfg0.N = 128 := N_0
    have ht : 64 * (i 0).val + 63 < cfg0.N := by rw [hN]; omega
    obtain ⟨e0, e1, e2⟩ := idx3 ⟨64 * (i 0).val + 63, ht⟩
    refine ⟨⟨64 * (i 0).val + 63, ht⟩, (flush0_3 _).mpr (by show (64 * (i 0).val + 63) % 64 = 63; omega), ?_⟩
    rw [mem_blk3]
    intro a
    match a with
    | ⟨0, _⟩ =>
      show win0_3.index ⟨64 * (i 0).val + 63, ht⟩ (0 : Fin 3) * 1 ≤ (i 0).val
        ∧ (i 0).val < win0_3.index ⟨64 * (i 0).val + 63, ht⟩ (0 : Fin 3) * 1 + 1
      rw [e0]; show (64 * (i 0).val + 63) / 64 * 1 ≤ (i 0).val ∧ (i 0).val < (64 * (i 0).val + 63) / 64 * 1 + 1; omega
    | ⟨1, _⟩ =>
      show win0_3.index ⟨64 * (i 0).val + 63, ht⟩ (1 : Fin 3) * 1 ≤ (i 1).val
        ∧ (i 1).val < win0_3.index ⟨64 * (i 0).val + 63, ht⟩ (1 : Fin 3) * 1 + 1
      rw [e1]; omega
    | ⟨2, _⟩ =>
      show win0_3.index ⟨64 * (i 0).val + 63, ht⟩ (2 : Fin 3) * 32 ≤ (i 2).val
        ∧ (i 2).val < win0_3.index ⟨64 * (i 0).val + 63, ht⟩ (2 : Fin 3) * 32 + 32
      rw [e2]; omega

end Cert.KernelIdeal.Final

end
-- ==== Proof.LibSumBlocks.lean ====
/-
  Regrouping a finite sum by blocks.  A sum over `Fin n` with `n = a * b` is the sum over the `a`
  blocks of `b` consecutive positions of each block's sum: position `p * b + q` is the `q`-th of
  block `p`.  Valid in any commutative additive monoid (the extended reals included: no
  cancellation is used), because it is only a re-indexing along the bijection
  `Fin a × Fin b ≃ Fin (a * b)`.
-/
import Mathlib.Algebra.BigOperators.Fin
import Mathlib.Logic.Equiv.Fin.Basic

namespace LibSumBlocks

/-- Position `q` of block `p` lies below `a * b`. -/
theorem mul_add_lt {a b p q : ℕ} (hp : p < a) (hq : q < b) : p * b + q < a * b :=
  calc p * b + q < p * b + b := by omega
    _ = (p + 1) * b := by rw [Nat.add_mul, Nat.one_mul]
    _ ≤ a * b := Nat.mul_le_mul_right b hp

/-- A sum over `Fin n`, `n = a * b`, is the double sum over the block `p : Fin a` and the position
    `q : Fin b` inside it of the term at `p * b + q`. -/
theorem sum_fin_blocks {M : Type*} [AddCommMonoid M] {n : ℕ} (a b : ℕ) (hn : a * b = n) (f : Fin n → M) :
    ∑ i : Fin n, f i
      = ∑ p : Fin a, ∑ q : Fin b, f ⟨p.val * b + q.val, hn ▸ mul_add_lt p.isLt q.isLt⟩ := by
  subst hn
  rw [← Equiv.sum_comp finProdFinEquiv f, Fintype.sum_prod_type]
  refine Finset.sum_congr rfl fun p _ => Finset.sum_congr rfl fun q _ => ?_
  refine congrArg f (Fin.ext ?_)
  show q.val + b * p.val = p.val * b + q.val
  rw [Nat.mul_comm, Nat.add_comm]

/-- The same for a term that depends on the position only through its value. -/
theorem sum_fin_nat_blocks {M : Type*} [AddCommMonoid M] {n : ℕ} (a b : ℕ) (hn : a * b = n) (g : ℕ → M) :
    ∑ i : Fin n, g i.val = ∑ p : Fin a, ∑ q : Fin b, g (p.val * b + q.val) :=
  sum_fin_blocks a b hn fun i => g i.val

/-- Three levels: `n = a * b * c` positions as `a` blocks of `b` rows of `c` entries; entry `l` of row `r` of
    block `t` is position `(t * b + r) * c + l`. -/
theorem sum_fin_nat_blocks3 {M : Type*} [AddCommMonoid M] {n : ℕ} (a b c : ℕ) (hn : a * b * c = n) (g : ℕ → M) :
    ∑ i : Fin n, g i.val
      = ∑ t : Fin a, ∑ r : Fin b, ∑ l : Fin c, g ((t.val * b + r.val) * c + l.val) := by
  rw [sum_fin_nat_blocks (a * b) c hn g]
  exact sum_fin_nat_blocks a b rfl fun R => ∑ l : Fin c, g (R * c + l.val)

/-- A sum over `Finset.range N` of a function that, below `N`, is a function of the `Fin N` position: the two
    spellings of one sum. -/
theorem sum_range_eq_sum_fin {M : Type*} [AddCommMonoid M] (N : ℕ) (g : ℕ → M) (f : Fin N → M)
    (h : ∀ t : Fin N, g t.val = f t) : ∑ s ∈ Finset.range N, g s = ∑ t : Fin N, f t := by
  rw [← Fin.sum_univ_eq_sum_range]
  exact Finset.sum_congr rfl fun t _ => h t

end LibSumBlocks
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.KernelSums.lean ====
/-
  The kernel's arithmetic, apart from how the program runs.

  A grid point adds to row b of the accumulator the column sums, over a 256 × 512 block of elements, of an element's
  weight where its bin is b; the last point of a core sums each accumulator row over its 512 lanes; the host adds the two
  cores' rows, keeps the first 20 entries and divides by the ring areas. Before the kernel the host lays the 16 777 216
  elements out as 32768 rows of 512. Read here one entry at a time: the column sums as a sum of the specification's
  per-element terms, the lane sums, the host's tail and prefix; and the re-indexing that turns the kernel's order of
  summation — core, lane, grid point, row — into the sum over all elements.
-/
import proofs.«114598_j75222057222756_2_alg».proof.Proof.Step
import proofs.«114598_j75222057222756_2_alg».proof.Proof.HistSpec
import proofs.«114598_j75222057222756_2_alg».proof.Proof.LibSumBlocks
import proofs.«114598_j75222057222756_2_alg».proof.Proof.LibRowOps
import Idealize.ShloMosaic.Lib.IdealHost

set_option maxRecDepth 16384

noncomputable section

open Idealize.ShloMosaic Idealize.ShloMosaic.TcCoe Idealize.SL.Sem Idealize.ShloMosaic.ValueIdx

namespace Cert.KernelIdeal.Sums

open Cert.KernelIdeal Cert.KernelIdeal.Gen

/-! ## The column sums of one block -/

/-- Lane `l` of the column sums for bin word `b`: the sum over the block's 256 rows of what the element at (r, l) adds
    to bin `b`. -/
theorem contrib_apply (b : BitVec 32) (x0 x1 x2 : Vec Ideal S256x512 .f32) (l : Fin 512) :
    Step.contrib b x0 x1 x2 (ix1 l)
      = ∑ r : Fin 256, Cert.Hist.term b (x0 (ix2 r l)) (x1 (ix2 r l)) (x2 (ix2 r l)) := by
  unfold Step.contrib
  refine (Ideal.multiReduction_add_single _ _ reduces_S256x512_S512 (.inl rfl) rfl (ix1 l)).trans ?_
  refine Finset.sum_congr rfl fun r _ => ?_
  have hl : reduces_S256x512_S512.lift (ix1 l) r = ix2 r l := by
    funext c; apply Fin.ext
    match c with
    | ⟨0, _⟩ => rfl
    | ⟨1, _⟩ => rfl
  rw [hl]
  unfold k0_pay5 k0_pay6 k0_pay4 Cert.Hist.term Cert.Hist.wt Cert.Hist.bin Cert.Hist.raw
  simp only [shapeCast_self]
  rfl

/-! ## The lane sums of the accumulator -/

/-- Entry (0, 0, b) of the output block: the sum of accumulator row `b` over its 512 lanes. -/
theorem pay2_apply (acc : Vec Ideal S32x512 .f32) (b : Fin 32) :
    k0_pay2 acc (ix3 (0 : Fin 1) (0 : Fin 1) b) = ∑ l : Fin 512, acc (ix2 b l) := by
  unfold k0_pay2
  refine (shapeCast_apply _ shapeCasts_S1x32_S1x1x32 (ix3 (0 : Fin 1) (0 : Fin 1) b) (ix2 (0 : Fin 1) b) (by
    rw [Shape.rowMajor_val_three, Shape.rowMajor_val_two]
    show (0 : ℕ) * 32 + b.val = ((0 : ℕ) * 1 + 0) * 32 + b.val
    omega)).trans ?_
  refine (transpose_apply [1, 0] _ transposes_S32x1_p1_0_S1x32 (ix2 (0 : Fin 1) b) (ix2 b (0 : Fin 1)) (fun c => by
    match c with
    | ⟨0, _⟩ => rfl
    | ⟨1, _⟩ => rfl)).trans ?_
  refine (Cert.Lib.RowOps.shapeCast_a_a1_apply _ shapeCasts_S32_S32x1 b 0).trans ?_
  exact Cert.Lib.RowOps.multiReduction_add_lanes acc _ reduces_S32x512_S32 (.inl rfl) rfl b

/-! ## The order of summation -/

/-- Summing over the 2 cores, the 512 lanes, a core's 64 grid points and a block's 256 rows is summing over all
    16 777 216 elements: element ((c · 64 + s) · 256 + r) · 512 + l is lane `l` of row `r` of the block of point `s` of
    core `c`. -/
theorem regroup {M : Type*} [AddCommMonoid M] (g : ℕ → M) :
    ∑ c : Fin 2, ∑ l : Fin 512, ∑ s ∈ Finset.range 64, ∑ r : Fin 256, g (((c.val * 64 + s) * 256 + r.val) * 512 + l.val)
      = ∑ j : Fin 16777216, g j.val := by
  have h1 : ∑ j : Fin 16777216, g j.val
      = ∑ t : Fin 128, ∑ r : Fin 256, ∑ l : Fin 512, g ((t.val * 256 + r.val) * 512 + l.val) :=
    LibSumBlocks.sum_fin_nat_blocks3 128 256 512 (by norm_num) g
  have h2 : ∑ t : Fin 128, ∑ r : Fin 256, ∑ l : Fin 512, g ((t.val * 256 + r.val) * 512 + l.val)
      = ∑ c : Fin 2, ∑ s : Fin 64, ∑ r : Fin 256, ∑ l : Fin 512, g (((c.val * 64 + s.val) * 256 + r.val) * 512 + l.val) :=
    LibSumBlocks.sum_fin_nat_blocks 2 64 (by norm_num)
      (fun t => ∑ r : Fin 256, ∑ l : Fin 512, g ((t * 256 + r.val) * 512 + l.val))
  rw [h1, h2]
  refine Finset.sum_congr rfl fun c _ => ?_
  rw [Finset.sum_comm]
  refine LibSumBlocks.sum_range_eq_sum_fin 64 _ _ (fun t => ?_)
  exact Finset.sum_comm

/-! ## The host's tail: add the two cores' rows, keep 20 entries, divide by the areas -/

/-- The four host operations after the kernel, as one function of the kernel's output and the areas. -/
def tail (v7 : (⟨S2x1x32, .f32⟩ : BufTy).Contents (Elt Ideal)) (area : (⟨S20, .f32⟩ : BufTy).Contents (Elt Ideal)) :
    (⟨S20, .f32⟩ : BufTy).Contents (Elt Ideal) :=
  Host.divf (shapeCast S20 (extractStridedSlice S1x20 ![0, 0]
    (Host.reduceAdd v7 (constant (F := Ideal) S_ .f32 0x00000000#32) reducesTo_S2x1x32_S1x32_d0 h_S_)
    slices_S1x32_S1x20_0_0) shapeCasts_S1x20_S20) area

/-- Entry `b` of the result: the two cores' entries `b` added, divided by the area of ring `b`. -/
theorem tail_apply (v7 : (⟨S2x1x32, .f32⟩ : BufTy).Contents (Elt Ideal)) (area : (⟨S20, .f32⟩ : BufTy).Contents (Elt Ideal))
    (b : Fin 20) :
    tail v7 area (ix1 b)
      = FloatOps.hostDivf (F := Ideal) (φ := .f32) (v7 (ix3 (0 : Fin 2) (0 : Fin 1) (⟨b.val, by omega⟩ : Fin 32))
          + v7 (ix3 (1 : Fin 2) (0 : Fin 1) (⟨b.val, by omega⟩ : Fin 32))) (area (ix1 b)) := by
  have hb : b.val < 32 := by omega
  have hR : S2x1x32.Reduces [0] S1x32 := by decide
  unfold tail
  show FloatOps.hostDivf (F := Ideal) (φ := .f32) (shapeCast S20 _ shapeCasts_S1x20_S20 (ix1 b)) (area (ix1 b)) = _
  congr 1
  refine (Step.cast_row_vec _ shapeCasts_S1x20_S20 b).trans ?_
  refine (extractStridedSlice_apply ![0, 0] _ slices_S1x32_S1x20_0_0 (ix2 (0 : Fin 1) b)
    (ix2 (0 : Fin 1) (⟨b.val, hb⟩ : Fin 32)) (fun a => by
      match a with
      | ⟨0, _⟩ => rfl
      | ⟨1, _⟩ => show b.val = 0 + b.val; omega)).trans ?_
  rw [hostReduceAdd_apply]
  refine (Ideal.hostReduceAdd_single reducesTo_S2x1x32_S1x32_d0 hR _ _ _).trans ?_
  show Ideal.ofBits .f32 0x00000000#32 + ∑ k : Fin 2, v7 (hR.lift (ix2 (0 : Fin 1) (⟨b.val, hb⟩ : Fin 32)) k) = _
  have e : ∀ k : Fin 2, hR.lift (ix2 (0 : Fin 1) (⟨b.val, hb⟩ : Fin 32)) k = ix3 k (0 : Fin 1) (⟨b.val, hb⟩ : Fin 32) := by
    intro k; funext c; apply Fin.ext
    match c with
    | ⟨0, _⟩ => rfl
    | ⟨1, _⟩ => rfl
    | ⟨2, _⟩ => rfl
  rw [Ideal.ofBits_zero_f32, zero_add, Fin.sum_univ_two, e, e]

/-! ## The host's prefix: the elements laid out as 32768 rows of 512 -/

/-- Row `R`, lane `l` of the layout is element `R · 512 + l`, a number below 16 777 216. -/
theorem flat_lt (R : Fin 32768) (l : Fin 512) : R.val * 512 + l.val < 16777216 := by omega

/-- The first coordinates, laid out: column 0 of the positions, flattened, as 32768 rows of 512. -/
def preX (a0 : (⟨S16777216x3, .f32⟩ : BufTy).Contents (Elt Ideal)) : (⟨S32768x512, .f32⟩ : BufTy).Contents (Elt Ideal) :=
  shapeCast S32768x512 (shapeCast S16777216 (extractStridedSlice S16777216x1 ![0, 0] a0 slices_S16777216x3_S16777216x1_0_0)
    shapeCasts_S16777216x1_S16777216) shapeCasts_S16777216_S32768x512

/-- The second coordinates, laid out: column 1 of the positions, flattened, as 32768 rows of 512. -/
def preY (a0 : (⟨S16777216x3, .f32⟩ : BufTy).Contents (Elt Ideal)) : (⟨S32768x512, .f32⟩ : BufTy).Contents (Elt Ideal) :=
  shapeCast S32768x512 (shapeCast S16777216 (extractStridedSlice S16777216x1 ![0, 1] a0 slices_S16777216x3_S16777216x1_0_1)
    shapeCasts_S16777216x1_S16777216) shapeCasts_S16777216_S32768x512

/-- The masses, laid out as 32768 rows of 512. -/
def preM (a1 : (⟨S16777216, .f32⟩ : BufTy).Contents (Elt Ideal)) : (⟨S32768x512, .f32⟩ : BufTy).Contents (Elt Ideal) :=
  shapeCast S32768x512 a1 shapeCasts_S16777216_S32768x512

/-- A vector of 16 777 216 entries laid out as 32768 rows of 512 reads, at (R, l), its entry R · 512 + l. -/
theorem cast_flat_apply {α : Type} (x : S16777216.Idx → α) (R : Fin 32768) (l : Fin 512) :
    shapeCast S32768x512 x shapeCasts_S16777216_S32768x512 (ix2 R l)
      = x (ix1 (⟨R.val * 512 + l.val, flat_lt R l⟩ : Fin 16777216)) :=
  shapeCast_apply x shapeCasts_S16777216_S32768x512 (ix2 R l) (ix1 (⟨R.val * 512 + l.val, flat_lt R l⟩ : Fin 16777216)) (by
    rw [Shape.rowMajor_val_one, Shape.rowMajor_val_two]
    rfl)

/-- A one-column array flattened reads, at n, its entry (n, 0). -/
theorem cast_col_apply {α : Type} (x : S16777216x1.Idx → α) (n : Fin 16777216) :
    shapeCast S16777216 x shapeCasts_S16777216x1_S16777216 (ix1 n) = x (ix2 n (0 : Fin 1)) :=
  shapeCast_apply x shapeCasts_S16777216x1_S16777216 (ix1 n) (ix2 n (0 : Fin 1)) (by
    rw [Shape.rowMajor_val_two, Shape.rowMajor_val_one]
    show n.val * 1 + 0 = n.val
    omega)

/-- Row `R`, lane `l` of the first coordinates is the position array at (R · 512 + l, 0). -/
theorem preX_apply (a0 : (⟨S16777216x3, .f32⟩ : BufTy).Contents (Elt Ideal)) (R : Fin 32768) (l : Fin 512) :
    preX a0 (ix2 R l) = a0 (ix2 (⟨R.val * 512 + l.val, flat_lt R l⟩ : Fin 16777216) (0 : Fin 3)) := by
  unfold preX
  rw [cast_flat_apply, cast_col_apply]
  exact extractStridedSlice_apply ![0, 0] a0 slices_S16777216x3_S16777216x1_0_0
    (ix2 (⟨R.val * 512 + l.val, flat_lt R l⟩ : Fin 16777216) (0 : Fin 1))
    (ix2 (⟨R.val * 512 + l.val, flat_lt R l⟩ : Fin 16777216) (0 : Fin 3)) (fun a => by
    match a with
    | ⟨0, _⟩ => show R.val * 512 + l.val = 0 + (R.val * 512 + l.val); omega
    | ⟨1, _⟩ => rfl)

/-- Row `R`, lane `l` of the second coordinates is the position array at (R · 512 + l, 1). -/
theorem preY_apply (a0 : (⟨S16777216x3, .f32⟩ : BufTy).Contents (Elt Ideal)) (R : Fin 32768) (l : Fin 512) :
    preY a0 (ix2 R l) = a0 (ix2 (⟨R.val * 512 + l.val, flat_lt R l⟩ : Fin 16777216) (1 : Fin 3)) := by
  unfold preY
  rw [cast_flat_apply, cast_col_apply]
  exact extractStridedSlice_apply ![0, 1] a0 slices_S16777216x3_S16777216x1_0_1
    (ix2 (⟨R.val * 512 + l.val, flat_lt R l⟩ : Fin 16777216) (0 : Fin 1))
    (ix2 (⟨R.val * 512 + l.val, flat_lt R l⟩ : Fin 16777216) (1 : Fin 3)) (fun a => by
    match a with
    | ⟨0, _⟩ => show R.val * 512 + l.val = 0 + (R.val * 512 + l.val); omega
    | ⟨1, _⟩ => rfl)

/-- Row `R`, lane `l` of the masses is the mass array at R · 512 + l. -/
theorem preM_apply (a1 : (⟨S16777216, .f32⟩ : BufTy).Contents (Elt Ideal)) (R : Fin 32768) (l : Fin 512) :
    preM a1 (ix2 R l) = a1 (ix1 (⟨R.val * 512 + l.val, flat_lt R l⟩ : Fin 16777216)) := by
  unfold preM
  exact cast_flat_apply a1 R l

end Cert.KernelIdeal.Sums

end
-- ==== Proof.Blocks.lean ====
/-
  What the kernel's windows read, and the join with the specification.

  Before the kernel the host lays the positions' two columns and the masses out as 32768 rows of 512; the kernel's three
  input windows cut each layout into 128 blocks of 256 rows, point t reading rows 256 t … 256 t + 255. So entry (r, l)
  of point t's block is element (256 t + r) · 512 + l of the original arrays. With that, a sum over cores, lanes, a core's
  points and a block's rows of per-element terms is the specification's sum over all elements.
-/
import proofs.«114598_j75222057222756_2_alg».proof.Proof.KernelSums
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

/-! ## The join with the specification (no program) -/

/-- Entry (r, l) of block n < 128 is an element: its number (256 n + r) · 512 + l is below 16 777 216. -/
theorem elt_lt (n : ℕ) (hn : n < 128) (r : Fin 256) (l : Fin 512) : (n * 256 + r.val) * 512 + l.val < 16777216 := by omega

/-- If `T n r l` is what element (256 n + r) · 512 + l adds to bin `b`, then summing `T` over the 2 cores, the 512 lanes,
    a core's 64 points and a block's 256 rows gives the mass of bin `b`: the sum over all elements. -/
theorem mass_join (a0 : (⟨S16777216x3, .f32⟩ : BufTy).Contents (Elt Ideal)) (a1 : (⟨S16777216, .f32⟩ : BufTy).Contents (Elt Ideal))
    (b : BitVec 32) (T : ℕ → Fin 256 → Fin 512 → EReal)
    (hT : ∀ (n : ℕ) (hn : n < 128) (r : Fin 256) (l : Fin 512),
      T n r l = Cert.Hist.term b
        (a0 (ix2 (⟨(n * 256 + r.val) * 512 + l.val, elt_lt n hn r l⟩ : Fin 16777216) (0 : Fin 3)))
        (a0 (ix2 (⟨(n * 256 + r.val) * 512 + l.val, elt_lt n hn r l⟩ : Fin 16777216) (1 : Fin 3)))
        (a1 (ix1 (⟨(n * 256 + r.val) * 512 + l.val, elt_lt n hn r l⟩ : Fin 16777216)))) :
    ∑ c : Fin 2, ∑ l : Fin 512, ∑ s ∈ Finset.range 64, ∑ r : Fin 256, T (64 * c.val + s) r l
      = ∑ j : Fin 16777216, Cert.Hist.term b (a0 (ix2 j (0 : Fin 3))) (a0 (ix2 j (1 : Fin 3))) (a1 (ix1 j)) := by
  let g : ℕ → EReal := fun n =>
    if h : n < 16777216 then
      Cert.Hist.term b (a0 (ix2 (⟨n, h⟩ : Fin 16777216) (0 : Fin 3))) (a0 (ix2 (⟨n, h⟩ : Fin 16777216) (1 : Fin 3)))
        (a1 (ix1 (⟨n, h⟩ : Fin 16777216)))
    else 0
  calc ∑ c : Fin 2, ∑ l : Fin 512, ∑ s ∈ Finset.range 64, ∑ r : Fin 256, T (64 * c.val + s) r l
      = ∑ c : Fin 2, ∑ l : Fin 512, ∑ s ∈ Finset.range 64, ∑ r : Fin 256,
          g (((c.val * 64 + s) * 256 + r.val) * 512 + l.val) := by
        refine Finset.sum_congr rfl fun c _ => Finset.sum_congr rfl fun l _ => Finset.sum_congr rfl fun s hs =>
          Finset.sum_congr rfl fun r _ => ?_
        have hs' : s < 64 := Finset.mem_range.mp hs
        have hn : 64 * c.val + s < 128 := by omega
        have e : ((c.val * 64 + s) * 256 + r.val) * 512 + l.val = ((64 * c.val + s) * 256 + r.val) * 512 + l.val := by
          omega
        rw [hT _ hn r l, e]
        show _ = dite (((64 * c.val + s) * 256 + r.val) * 512 + l.val < 16777216) _ _
        rw [dif_pos (elt_lt _ hn r l)]
    _ = ∑ j : Fin 16777216, g j.val := Sums.regroup g
    _ = _ := Finset.sum_congr rfl fun j _ => dif_pos j.isLt

/-! ## The arrays the kernel's windows read -/

variable (m : (ℓ : Loc nD τ sig) → Buf (Elt Ideal) ℓ)

/-- The first window's array, as the kernel finds it: the first coordinates laid out. -/
theorem V_v2 (c : Dev nD) :
    (V m c main_v2 : S32768x512.Idx → Ideal .f32) = Sums.preX (m ((c : Thread nD τ).loc main_arg0)) := by
  dsimp only [Gen.V, Gen.V0]
  show StableHlo.after hostOps0 (fun b => m (c, b)) (Proc.devRef .tc main_v2) = _
  after_results
  rfl

/-- The second window's array: the second coordinates laid out. -/
theorem V_v5 (c : Dev nD) :
    (V m c main_v5 : S32768x512.Idx → Ideal .f32) = Sums.preY (m ((c : Thread nD τ).loc main_arg0)) := by
  dsimp only [Gen.V, Gen.V0]
  show StableHlo.after hostOps0 (fun b => m (c, b)) (Proc.devRef .tc main_v5) = _
  after_results
  rfl

/-- The third window's array: the masses laid out. -/
theorem V_v6 (c : Dev nD) :
    (V m c main_v6 : S32768x512.Idx → Ideal .f32) = Sums.preM (m ((c : Thread nD τ).loc main_arg1)) := by
  dsimp only [Gen.V, Gen.V0]
  show StableHlo.after hostOps0 (fun b => m (c, b)) (Proc.devRef .tc main_v6) = _
  after_results
  rfl

/-! ## The blocks the kernel's windows read -/

/-- The first window's index map, decided over the grid: point t reads block row t, block column 0. -/
theorem idx0 : ∀ t : Fin grid0.N, win0_0.index t (0 : Fin 2) = t.val ∧ win0_0.index t (1 : Fin 2) = 0 := by decide +kernel
/-- The second window's index map is the same. -/
theorem idx1 : ∀ t : Fin grid0.N, win0_1.index t (0 : Fin 2) = t.val ∧ win0_1.index t (1 : Fin 2) = 0 := by decide +kernel
/-- So is the third window's. -/
theorem idx2 : ∀ t : Fin grid0.N, win0_2.index t (0 : Fin 2) = t.val ∧ win0_2.index t (1 : Fin 2) = 0 := by decide +kernel

/-- A point's number is below 128. -/
theorem pt_lt (t : Fin cfg0.N) : t.val < 128 :=
  lt_of_lt_of_eq t.isLt (show cfg0.N = 128 from N_0)

/-- Row r of point t's block is row 256 t + r of the layout, a row below 32768. -/
theorem row_lt (t : Fin cfg0.N) (r : Fin 256) : t.val * 256 + r.val < 32768 := by
  have := pt_lt t
  omega

/-- Entry (r, l) of point t's block is an element: its number is below 16 777 216. -/
theorem blk_lt (t : Fin cfg0.N) (r : Fin 256) (l : Fin 512) : (t.val * 256 + r.val) * 512 + l.val < 16777216 :=
  elt_lt t.val (pt_lt t) r l

/-- Entry (r, l) of the first window's block at point t: the positions at ((256 t + r) · 512 + l, 0). -/
theorem iblk0_apply (c : Dev nD) (t : Fin cfg0.N) (r : Fin 256) (l : Fin 512) :
    (iblk m c 0 t : Vec Ideal S256x512 .f32) (ix2 r l)
      = m ((c : Thread nD τ).loc main_arg0) (ix2 (⟨(t.val * 256 + r.val) * 512 + l.val, blk_lt t r l⟩ : Fin 16777216) (0 : Fin 3)) := by
  have hi := idx0 t
  unfold iblk
  rw [View.read_apply]
  show V m c main_v2 _ = _
  rw [V_v2]
  have he : ((cfg0.win 0).blk t).view.emb (ix2 r l) = ix2 (⟨t.val * 256 + r.val, row_lt t r⟩ : Fin 32768) l := by
    funext a; apply Fin.ext
    match a with
    | ⟨0, _⟩ => show win0_0.index t 0 * 256 + 1 * r.val = t.val * 256 + r.val; rw [hi.1]; omega
    | ⟨1, _⟩ => show win0_0.index t 1 * 512 + 1 * l.val = l.val; rw [hi.2]; omega
  rw [he, Sums.preX_apply]

/-- Entry (r, l) of the second window's block at point t: the positions at ((256 t + r) · 512 + l, 1). -/
theorem iblk1_apply (c : Dev nD) (t : Fin cfg0.N) (r : Fin 256) (l : Fin 512) :
    (iblk m c 1 t : Vec Ideal S256x512 .f32) (ix2 r l)
      = m ((c : Thread nD τ).loc main_arg0) (ix2 (⟨(t.val * 256 + r.val) * 512 + l.val, blk_lt t r l⟩ : Fin 16777216) (1 : Fin 3)) := by
  have hi := idx1 t
  unfold iblk
  rw [View.read_apply]
  show V m c main_v5 _ = _
  rw [V_v5]
  have he : ((cfg0.win 1).blk t).view.emb (ix2 r l) = ix2 (⟨t.val * 256 + r.val, row_lt t r⟩ : Fin 32768) l := by
    funext a; apply Fin.ext
    match a with
    | ⟨0, _⟩ => show win0_1.index t 0 * 256 + 1 * r.val = t.val * 256 + r.val; rw [hi.1]; omega
    | ⟨1, _⟩ => show win0_1.index t 1 * 512 + 1 * l.val = l.val; rw [hi.2]; omega
  rw [he, Sums.preY_apply]

/-- Entry (r, l) of the third window's block at point t: the mass of element (256 t + r) · 512 + l. -/
theorem iblk2_apply (c : Dev nD) (t : Fin cfg0.N) (r : Fin 256) (l : Fin 512) :
    (iblk m c 2 t : Vec Ideal S256x512 .f32) (ix2 r l)
      = m ((c : Thread nD τ).loc main_arg1) (ix1 (⟨(t.val * 256 + r.val) * 512 + l.val, blk_lt t r l⟩ : Fin 16777216)) := by
  have hi := idx2 t
  unfold iblk
  rw [View.read_apply]
  show V m c main_v6 _ = _
  rw [V_v6]
  have he : ((cfg0.win 2).blk t).view.emb (ix2 r l) = ix2 (⟨t.val * 256 + r.val, row_lt t r⟩ : Fin 32768) l := by
    funext a; apply Fin.ext
    match a with
    | ⟨0, _⟩ => show win0_2.index t 0 * 256 + 1 * r.val = t.val * 256 + r.val; rw [hi.1]; omega
    | ⟨1, _⟩ => show win0_2.index t 1 * 512 + 1 * l.val = l.val; rw [hi.2]; omega
  rw [he, Sums.preM_apply]

end Cert.KernelIdeal.Blocks

end
-- ==== Proof.KernelResult.lean ====
/-
  The kernel program's result.

  After the region the output array holds, at (q, 0, b), row b's lane sum of the accumulator after core q's 64 points,
  i.e. the sum over the 512 lanes, the 64 steps and the 256 rows of a block of what each element adds to bin b. The
  host lines after the region add the two cores' entries, keep bins 0 to 19 and divide by the ring areas. The element in
  row r, lane l of the block of point n is element ((256·n + r)·512 + l) of the argument arrays (the arrays are the
  arguments' columns cast to 32768 × 512, and point n = 64·q + s reads block row n). So the four nested sums run over
  every element exactly once, and the result is the specification `G` of the argument arrays.
-/
import proofs.«114598_j75222057222756_2_alg».proof.Proof.Final
import proofs.«114598_j75222057222756_2_alg».proof.Proof.Blocks
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Step Cert.KernelIdeal.Acc Cert.KernelIdeal.Final

variable (m : (ℓ : Loc nD τ sig) → Buf (Elt Ideal) ℓ) (ρ : Dev nD → PrngReg)

/-- What the element in row `r`, lane `l` of point `n`'s blocks adds to bin word `b` (0 for an `n` past the grid). -/
def elt (c : Dev nD) (b : BitVec 32) (n : ℕ) (r : Fin 256) (l : Fin 512) : EReal :=
  if h : n < cfg0.N then Cert.Hist.term b (iblk m c 0 ⟨n, h⟩ (ix2 r l)) (iblk m c 1 ⟨n, h⟩ (ix2 r l)) (iblk m c 2 ⟨n, h⟩ (ix2 r l)) else 0

/-- A point's column sum at a lane is the sum over the block's rows of what its elements add. -/
theorem colSum_eq (c : Dev nD) (n : ℕ) (b : BitVec 32) (l : Fin 512) : colSum m c n b l = ∑ r : Fin 256, elt m c b n r l := by
  unfold colSum elt
  by_cases h : n < cfg0.N
  · simp only [dif_pos h]
    exact Sums.contrib_apply b _ _ _ l
  · simp only [dif_neg h]
    exact Finset.sum_const_zero.symm

/-- In terms of the argument arrays. -/
theorem elt_eq (c : Dev nD) (b : BitVec 32) (n : ℕ) (hn : n < 128) (r : Fin 256) (l : Fin 512) :
    elt m c b n r l = Cert.Hist.term b
      (m ((c : Thread nD τ).loc main_arg0) (ix2 (⟨(n * 256 + r.val) * 512 + l.val, Blocks.elt_lt n hn r l⟩ : Fin 16777216) (0 : Fin 3)))
      (m ((c : Thread nD τ).loc main_arg0) (ix2 (⟨(n * 256 + r.val) * 512 + l.val, Blocks.elt_lt n hn r l⟩ : Fin 16777216) (1 : Fin 3)))
      (m ((c : Thread nD τ).loc main_arg1) (ix1 (⟨(n * 256 + r.val) * 512 + l.val, Blocks.elt_lt n hn r l⟩ : Fin 16777216))) := by
  have hN : cfg0.N = 128 := N_0
  have h : n < cfg0.N := by rw [hN]; exact hn
  unfold elt
  rw [dif_pos h, Blocks.iblk0_apply m c ⟨n, h⟩ r l, Blocks.iblk1_apply m c ⟨n, h⟩ r l, Blocks.iblk2_apply m c ⟨n, h⟩ r l]

/-- Entry (q, 0, b) of the output array, for a bin b < 20. -/
theorem out_entry (c : Dev nD) (q : Fin 2) (b : Fin 32) (hb : b.val < 20) :
    (out m c (ix3 q (0 : Fin 1) b) : EReal)
      = ∑ l : Fin 512, ∑ s ∈ Finset.range 64, ∑ r : Fin 256, elt m c (BitVec.ofNat 32 b.val) (64 * q.val + s) r l := by
  have hN : cfg0.N = 128 := N_0
  have hq : q.val < 2 := q.isLt
  have h : 64 * q.val + 63 < cfg0.N := by rw [hN]; omega
  show k0_pay2 (accT m c (64 * q.val + 63)) (ix3 (0 : Fin 1) (0 : Fin 1) b) = _
  rw [accT_of_lt m c _ h, Sums.pay2_apply]
  refine Finset.sum_congr rfl fun l _ => ?_
  rw [accAt_closed m c q.val b l 63 h (by omega), if_pos hb]
  exact Finset.sum_congr rfl fun s _ => colSum_eq m c _ _ l

/-- The host lines after the region, applied to the output array and the areas, give the specification. -/
theorem tail_out (c : Dev nD) :
    Sums.tail (out m c) (m ((c : Thread nD τ).loc main_arg2))
      = Cert.Hist.G (m ((c : Thread nD τ).loc main_arg0)) (m ((c : Thread nD τ).loc main_arg1)) (m ((c : Thread nD τ).loc main_arg2)) := by
  funext i
  obtain ⟨b, rfl⟩ : ∃ b : Fin 20, i = ix1 b := ⟨i 0, eq_ix1 i⟩
  have hb : b.val < 20 := b.isLt
  rw [Sums.tail_apply]
  show FloatOps.hostDivf (F := Ideal) (φ := .f32) _ _ = FloatOps.hostDivf (F := Ideal) (φ := .f32) (Cert.Hist.mass _ _ b) _
  refine congrArg (fun z : EReal => FloatOps.hostDivf (F := Ideal) (φ := .f32) z (m ((c : Thread nD τ).loc main_arg2) (ix1 b))) ?_
  unfold Cert.Hist.mass
  rw [out_entry m c 0 ⟨b.val, by omega⟩ hb, out_entry m c 1 ⟨b.val, by omega⟩ hb]
  exact (Fin.sum_univ_two (fun q : Fin 2 => ∑ l : Fin 512, ∑ s ∈ Finset.range 64, ∑ r : Fin 256,
      elt m c (BitVec.ofNat 32 b.val) (64 * q.val + s) r l)).symm.trans
    (Blocks.mass_join _ _ (BitVec.ofNat 32 b.val) (elt m c (BitVec.ofNat 32 b.val)) (fun n hn r l => elt_eq m c _ n hn r l))

/-- The result buffer after the run: the host tail of the output array and the areas. -/
theorem tail_res (c : Dev nD) :
    Pipeline.afterTail₀ cfgs (dats m) 0 (V0 m) [hostOps1] c main_v11 = Sums.tail (out m c) (m ((c : Thread nD τ).loc main_arg2)) := by
  unfold Pipeline.afterTail₀
  show StableHlo.after hostOps1 _ (Proc.devRef .tc main_v11) = _
  after_results
  have e3 : Pipeline.withArrays (cfgs 0).spec c (V0 m c) (fun w => (dats m 0 c).arrAt w (cfgs 0).N) (Proc.devRef .tc main_v7)
      = out m c := (Pipeline.withArrays_arr spec0 launch0.win.arr_inj c _ _ 3).trans (final3 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e3, e2]
  rfl

/-- Every weakly fair execution of the program terminates with its result at the specification of the arguments, and
    the arguments unchanged. -/
theorem run : θ_run defs (onTc (τ := τ) (main (F := Ideal))) ⟨m, fun _ => 0, ρ⟩ fun r => ∀ c : Dev nD,
      r.2.mem ((c.tc : Thread nD τ).loc main_v11)
        = Cert.Hist.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans ((tail_res m c).trans (tail_out m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.LibScatterAdd.lean ====
/-
  An accumulating scatter of a vector of updates into a vector, read at an entry.

  The operand is a vector of length K, the updates a vector of length N, and the scatter indices an N × 1 array of
  words: update j carries the one index word idx[j, 0]. The scatter adds update j to the operand's entry whose
  position is that word READ AS A SIGNED INTEGER, and drops the update when the position is outside [0, K).
  Over the extended reals the result's entry i is therefore the operand's entry i plus the sum, over all N updates,
  of the updates whose index word, read signed, is i.
-/
import Idealize.ShloMosaic.PureOps.Ideal
import Idealize.ShloMosaic.PureOps.Contract
import Idealize.ShloMosaic.Lib.ValueIdx

noncomputable section

open scoped BigOperators

namespace Cert.LibScatterAdd

open Idealize.ShloMosaic Idealize.ShloMosaic.ValueIdx

/-- A rank-1 index set is its one coordinate's range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The dimension numbers of the scatter: no window axes in the updates, the operand's one axis inserted, the one
    component of the index vector naming that axis, and the index vector along the indices' second axis. Their
    conditions `wf` are decided on a program's literal extents. -/
abbrev vecDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

/-- WHERE AN UPDATE LANDS: update `j` lands on entry `i` exactly when its index word, read signed, is `i`. -/
theorem resultIdx?_eq_some_iff {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (i : (⟨1, ![K]⟩ : Shape).Idx) :
    (vecDims K N wf).resultIdx? j idx = some i ↔ (idx (ix2 (j 0) (0 : Fin 1))).toInt = ((i 0).val : Int) := by
  have hstart : ∀ a, (vecDims K N wf).start j idx a + ((vecDims K N wf).window j a : Int)
      = (idx (ix2 (j 0) (0 : Fin 1))).toInt := by
    intro a
    obtain rfl : a = 0 := Subsingleton.elim _ _
    have hw : (vecDims K N wf).window j 0 = 0 := by
      unfold ScatterDims.window
      have hk : (0 : Fin (⟨1, ![K]⟩ : Shape).rank) ∉ (vecDims K N wf).sKept :=
        show (0 : Fin 1) ∉ (List.finRange 1).filter (fun a => a ∉ [(0 : Fin 1)]) by decide
      rw [dif_neg hk]
    unfold ScatterDims.start
    rw [dif_pos (show (0 : Fin 1) ∈ (vecDims K N wf).scatterDimsToOperandDims from List.mem_singleton.mpr rfl), hw]
    have hsi : (vecDims K N wf).siIdx j ⟨List.idxOf (0 : Fin 1) (vecDims K N wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    simp
  unfold ScatterDims.resultIdx?
  by_cases h : ∀ a, 0 ≤ (vecDims K N wf).start j idx a + ((vecDims K N wf).window j a : Int) ∧
      (vecDims K N wf).start j idx a + ((vecDims K N wf).window j a : Int) < ((⟨1, ![K]⟩ : Shape).size a : Int)
  · rw [dif_pos h]
    constructor
    · intro he
      have hv := congrArg Fin.val (congrFun (Option.some.inj he) 0)
      have h0 := (h 0).1
      simp only [hstart 0] at hv h0
      omega
    · intro he
      congr 1
      funext a
      obtain rfl : a = 0 := Subsingleton.elim _ _
      refine Fin.ext ?_
      show ((vecDims K N wf).start j idx 0 + ((vecDims K N wf).window j 0 : Int)).toNat = (i 0).val
      rw [hstart 0, he]
      simp
  · rw [dif_neg h]
    constructor
    · intro he; cases he
    · intro he
      exfalso; apply h
      intro a
      obtain rfl : a = 0 := Subsingleton.elim _ _
      rw [hstart 0, he]
      have hlt : (i 0).val < K := (i 0).isLt
      constructor
      · omega
      · show ((i 0).val : Int) < (K : Int)
        exact_mod_cast hlt

/-- THE SCATTER READ AT ENTRY `i`: over the extended reals, the operand's entry `i` plus the sum over all `N` updates
    of those whose index word, read signed, is `i` (every other update adds 0 to this entry). -/
theorem scatterAdd_vec_apply {φ : FTy} {K N w : Nat} (wf : ScatterDims.WF ⟨1, ![K]⟩ ⟨2, ![N, 1]⟩ ⟨1, ![N]⟩ [] [0] [0] 1)
    (x : FVec Ideal ⟨1, ![K]⟩ φ) (idx : IVec ⟨2, ![N, 1]⟩ w) (upd : FVec Ideal ⟨1, ![N]⟩ φ)
    (i : (⟨1, ![K]⟩ : Shape).Idx) :
    Host.scatterAdd (vecDims K N wf) x idx upd i
      = ((x i : EReal) + ∑ j : Fin N,
          if (idx (ix2 j (0 : Fin 1))).toInt = ((i 0).val : Int) then (upd (ix1 j) : EReal) else 0) := by
  show (x i : EReal) + ∑ j ∈ Finset.univ.filter (fun j => (vecDims K N wf).resultIdx? j idx = some i), upd j = _
  congr 1
  rw [Finset.sum_filter, sum_idx1]
  refine Finset.sum_congr rfl fun j _ => ?_
  have hj := resultIdx?_eq_some_iff wf idx (ix1 j) i
  by_cases hc : (idx (ix2 j (0 : Fin 1))).toInt = ((i 0).val : Int)
  · rw [if_pos hc, if_pos (hj.2 hc)]
  · rw [if_neg hc, if_neg (fun h => hc (hj.1 h))]

end Cert.LibScatterAdd

end
-- ==== Proof.RefSide.lean ====
/-
  The reference's result, read one entry at a time.

  The reference computes, for every element, its ring word (floor of twice the distance from the origin, as a signed
  word), its weight (the mass when the word lies in [0, 20), else 0) and its bin (the word clamped to [0, 19]); it
  then scatters the weights into a vector of 20 zeros by bin, adding, and divides by the ring areas. Read at bin b
  the scatter is 0 plus the sum of the weights of the elements whose bin is b, which is the mass of bin b in the
  histogram's specification; so the reference's result is the specification's.
-/
import proofs.«114598_j75222057222756_2_alg».proof.Defs
import proofs.«114598_j75222057222756_2_alg».proof.Proof.Gen.ReferenceIdeal.Read
import proofs.«114598_j75222057222756_2_alg».proof.Proof.HistSpec
import proofs.«114598_j75222057222756_2_alg».proof.Proof.LibScatterAdd

noncomputable section

namespace Cert.ReferenceIdeal.RefSide

open Cert.ReferenceIdeal Cert.ReferenceIdeal.Gen Cert.ReferenceIdeal.Read Idealize.ShloMosaic Idealize.ShloMosaic.ValueIdx
  Cert.LibScatterAdd

/-- A 32-bit word reads, signed, as a natural number below 20 exactly when it is that number's word. -/
theorem toInt_eq_iff (B : BitVec 32) (n : Nat) (hn : n < 20) : B.toInt = (n : Int) ↔ B = BitVec.ofNat 32 n := by
  have h : (BitVec.ofNat 32 n).toInt = (n : Int) := by
    have hN : (BitVec.ofNat 32 n).toNat = n := by rw [BitVec.toNat_ofNat]; omega
    rw [BitVec.toInt_eq_toNat_of_lt (by omega), hN]
  constructor
  · intro h1; exact BitVec.eq_of_toInt_eq (h1.trans h.symm)
  · rintro rfl; exact h

/-- Element `j`'s first coordinate: the slice of column 0, flattened, reads the positions at (j, 0). -/
theorem idx_x (j : Fin 16777216) : idx_main_v0 (idx_main_v1 (ix1 j)) = ix2 j (0 : Fin 3) := by
  funext a
  match a with
  | ⟨0, _⟩ => exact Fin.ext (Nat.div_one _)
  | ⟨1, _⟩ => rfl

/-- Element `j`'s second coordinate: the slice of column 1, flattened, reads the positions at (j, 1). -/
theorem idx_y (j : Fin 16777216) : idx_main_v3 (idx_main_v4 (ix1 j)) = ix2 j (1 : Fin 3) := by
  funext a
  match a with
  | ⟨0, _⟩ => exact Fin.ext (Nat.div_one _)
  | ⟨1, _⟩ => rfl

/-- The index array's entry (j, 0) is the bin vector's entry j. -/
theorem idx_b (j : Fin 16777216) : idx_main_v22 (ix2 j (0 : Fin 1)) = ix1 j := by
  funext a
  match a with
  | ⟨0, _⟩ => rfl

variable (x0 : (⟨S16777216x3, .f32⟩ : BufTy).Contents (Elt Ideal)) (x1 : (⟨S16777216, .f32⟩ : BufTy).Contents (Elt Ideal))
  (x2 : (⟨S20, .f32⟩ : BufTy).Contents (Elt Ideal))

/-- The reference's ring word of element `j` is the specification's. -/
theorem v13_eq (j : Fin 16777216) :
    val_main_v13 (F := Ideal) x0 (ix1 j) = Cert.Hist.raw (x0 (ix2 j (0 : Fin 3))) (x0 (ix2 j (1 : Fin 3))) := by
  rw [← Cert.Hist.rawRef_eq]
  unfold Cert.Hist.rawRef
  rw [val_main_v13_apply, val_main_v12_apply, val_main_v11_apply, val_main_v9_apply, val_main_v7_apply, val_main_v6_apply,
    val_main_v2_apply, val_main_v5_apply, val_main_v1_apply, val_main_v4_apply, val_main_v0_apply, val_main_v3_apply,
    val_main_v8_apply, val_main_cst_apply, val_main_v10_apply, val_main_cst_0_apply, idx_x, idx_y]

/-- The reference's bin of element `j` is the specification's. -/
theorem v20_eq (j : Fin 16777216) :
    val_main_v20 (F := Ideal) x0 (ix1 j) = Cert.Hist.bin (x0 (ix2 j (0 : Fin 3))) (x0 (ix2 j (1 : Fin 3))) := by
  unfold Cert.Hist.bin
  rw [val_main_v20_apply, val_main_call1_v2_apply, v13_eq, val_main_call1_v4_apply, val_main_call1_v3_apply,
    val_main_c_4_apply, val_main_call1_v1_apply, val_main_call1_v0_apply, val_main_c_3_apply]

/-- The reference's weight of element `j` is the specification's. -/
theorem v19_eq (j : Fin 16777216) :
    val_main_v19 (F := Ideal) x0 x1 (ix1 j)
      = Cert.Hist.wt (x0 (ix2 j (0 : Fin 3))) (x0 (ix2 j (1 : Fin 3))) (x1 (ix1 j)) := by
  unfold Cert.Hist.wt
  rw [val_main_v19_apply, val_main_v18_apply, val_main_v15_apply, val_main_v17_apply, v13_eq, val_main_v14_apply,
    val_main_c_apply, val_main_v16_apply, val_main_c_1_apply, val_main_call0_v0_apply, val_main_cst_2_apply]

/-- The scatter read at bin `i`: 0 plus the sum of the weights of the elements whose bin is `i`, the mass of bin `i`. -/
theorem v23_eq (i : S20.Idx) : val_main_v23 (F := Ideal) x0 x1 i = Cert.Hist.mass x0 x1 (i 0) := by
  unfold val_main_v23 Cert.Hist.mass
  rw [show scatter_S20_S16777216x1_S16777216_n_0_0_1
        = vecDims 20 16777216 scatter_S20_S16777216x1_S16777216_n_0_0_1_wf from rfl,
    scatterAdd_vec_apply, val_main_v21_apply, val_main_cst_5_apply, Ideal.ofBits_def, Cert.Hist.ofBits_zero, zero_add]
  refine Finset.sum_congr rfl fun j _ => ?_
  rw [val_main_v22_apply, idx_b, v20_eq, v19_eq]
  unfold Cert.Hist.term Scalar.select
  rw [Cert.Hist.term_zero]
  by_cases hc : Cert.Hist.bin (x0 (ix2 j (0 : Fin 3))) (x0 (ix2 j (1 : Fin 3))) = BitVec.ofNat 32 (i 0).val
  · rw [if_pos ((toInt_eq_iff _ _ (i 0).isLt).2 hc)]
    exact (if_pos (IntOp.cmpi_eq.2 hc)).symm
  · rw [if_neg (fun h => hc ((toInt_eq_iff _ _ (i 0).isLt).1 h))]
    exact (if_neg (fun h => hc (IntOp.cmpi_eq.1 h))).symm

/-- THE REFERENCE IS THE SPECIFICATION: per bin, the mass in the bin divided by the ring's area. -/
theorem ref_eq_G : val_main_v24 (F := Ideal) x0 x1 x2 = Cert.Hist.G x0 x1 x2 := by
  funext i
  rw [val_main_v24_apply, v23_eq]
  rfl

end Cert.ReferenceIdeal.RefSide

end
-- ==== Proof.lean ====
/-
  A 20-bin radial mass histogram of 16 777 216 particles, divided by the ring areas: the kernel against the reference,
  over the extended reals.

  Both programs give element j, with planar coordinates (x, y) = positions[j, 0], positions[j, 1] and mass m = masses[j],
  the ring number floor (2 · sqrt (x² + y²)) read as a signed word, the weight m when that word lies in [0, 20) and 0
  otherwise, and the bin min (19, max (0, word)); bin b of the result is the sum of the weights of the elements in bin b,
  divided by area[b] (Proof/HistSpec.lean: `Cert.Hist.G`).

  The reference spells the ring number with a division by 1/2 where the kernel multiplies by 2 — one function on every
  extended real — and accumulates with a scatter-add, which at exact arithmetic is the sum over the elements whose bin
  word is b (Proof/RefSide.lean, Proof/LibScatterAdd.lean).

  The kernel walks a 2 × 64 grid. Each point reads three 256 × 512 blocks (x, y, mass), and for each bin adds the block's
  masked column sums to one row of a 32 × 512 accumulator that is reset at the first of a core's 64 points and carried
  through them (Proof/Step.lean: one point's effect; Proof/Acc.lean: the accumulator after each point, by induction on
  the point); the last of the 64 points stores the accumulator's lane sums as the core's output block
  (Proof/Final.lean); the host adds the two cores' blocks, keeps bins 0–19 and divides by the areas
  (Proof/KernelSums.lean, Proof/Blocks.lean, Proof/KernelResult.lean). Cores, steps, rows and lanes enumerate every
  element exactly once, and addition of extended reals is commutative and associative, so the kernel's nested sums are
  the reference's single sum: no finiteness of the inputs is needed, and the precondition is never opened.

  The ideal pass rewrote nothing, so the kernel's idealization is its own text read at exact arithmetic.
-/
import proofs.«114598_j75222057222756_2_alg».proof.Defs
import proofs.«114598_j75222057222756_2_alg».proof.Proof.Gen.Kernel
import proofs.«114598_j75222057222756_2_alg».proof.Proof.Gen.Kernel.Skeleton
import proofs.«114598_j75222057222756_2_alg».proof.Proof.Gen.Kernel.Launch
import proofs.«114598_j75222057222756_2_alg».proof.Proof.Gen.Kernel.Points
import proofs.«114598_j75222057222756_2_alg».proof.Proof.Gen.Kernel.Frame
import proofs.«114598_j75222057222756_2_alg».proof.Proof.Gen.KernelIdeal
import proofs.«114598_j75222057222756_2_alg».proof.Proof.Gen.KernelIdeal.Skeleton
import proofs.«114598_j75222057222756_2_alg».proof.Proof.Gen.KernelIdeal.Launch
import proofs.«114598_j75222057222756_2_alg».proof.Proof.Gen.KernelIdeal.Points
import proofs.«114598_j75222057222756_2_alg».proof.Proof.Gen.KernelIdeal.Frame
import proofs.«114598_j75222057222756_2_alg».proof.Proof.Gen.ReferenceIdeal
import proofs.«114598_j75222057222756_2_alg».proof.Proof.Gen.ReferenceIdeal.Run
import proofs.«114598_j75222057222756_2_alg».proof.Proof.Gen.ReferenceIdeal.Read
import proofs.«114598_j75222057222756_2_alg».proof.Proof.Gen.Pre_finite_inputs
import proofs.«114598_j75222057222756_2_alg».proof.Proof.KernelResult
import proofs.«114598_j75222057222756_2_alg».proof.Proof.RefSide
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the histogram `Cert.Hist.G` of the arguments. -/
theorem algebraic : Cert.algebraic_KernelIdeal_ReferenceIdeal := by
  intro m ρ m' ρ' _ hagree
  refine ⟨fun c => Cert.Hist.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefSide.ref_eq_G, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
